-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x5x512 : Shape := ⟨3, ![64, 5, 512]⟩
abbrev S64x64 : Shape := ⟨2, ![64, 64]⟩
abbrev S_ : Shape := ⟨0, ![]⟩

class Facts : Prop where
  bcast_S_S64x5x512 : S_.BroadcastsInDim S64x5x512 (![] : Fin 0 → Fin S64x5x512.rank)
  reducesTo_S64x5x512_S_d0_1_2 : S64x5x512.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S64x5x512 .f32) (main_arg1 : FVec F S64x5x512 .f32) (main_arg2 : FVec F S64x64 .f32) : IVec S_ 1 :=
  let main_v0 : FVec F S64x5x512 .f32 := Host.absf main_arg0
  let main_cst : FVec F S_ .f32 := constant S_ .f32 0x7F800000#32
  let main_v1 : FVec F S64x5x512 .f32 := broadcastInDim S64x5x512 ![] bcast_S_S64x5x512 main_cst
  let main_v2 : IVec S64x5x512 1 := cmpf .olt main_v0 main_v1
  let main_c : IVec S_ 1 := constantI S_ 1 1#1
  let main_v3 : IVec S_ 1 := (fun x v => Host.reduce IntOp.andi x v reducesTo_S64x5x512_S_d0_1_2 h_S_) main_v2 main_c
  let main_v4 : FVec F S64x5x512 .f32 := Host.absf main_arg1
  let main_cst_0 : FVec F S_ .f32 := constant S_ .f32 0x7F800000#32
  let main_v5 : FVec F S64x5x512 .f32 := broadcastInDim S64x5x512 ![] bcast_S_S64x5x512 main_cst_0
  let main_v6 : IVec S64x5x512 1 := cmpf .olt main_v4 main_v5
  let main_c_1 : IVec S_ 1 := constantI S_ 1 1#1
  let main_v7 : IVec S_ 1 := (fun x v => Host.reduce IntOp.andi x v reducesTo_S64x5x512_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S64x5x512 : Shape := ⟨3, ![64, 5, 512]⟩
abbrev S64x64 : Shape := ⟨2, ![64, 64]⟩
abbrev S320x512 : Shape := ⟨2, ![320, 512]⟩
abbrev S320x320 : Shape := ⟨2, ![320, 320]⟩
abbrev S512x320 : Shape := ⟨2, ![512, 320]⟩
abbrev S64x64x5 : Shape := ⟨3, ![64, 64, 5]⟩
abbrev S64x320 : Shape := ⟨2, ![64, 320]⟩
abbrev S64x5x320 : Shape := ⟨3, ![64, 5, 320]⟩
abbrev S1x1 : Shape := ⟨2, ![1, 1]⟩
abbrev S8x320 : Shape := ⟨2, ![8, 320]⟩
abbrev S8x320x1 : Shape := ⟨3, ![8, 320, 1]⟩
abbrev S8x1x320 : Shape := ⟨3, ![8, 1, 320]⟩
abbrev S8x320x320 : Shape := ⟨3, ![8, 320, 320]⟩
abbrev S8 : Shape := ⟨1, ![8]⟩
abbrev S8x1 : Shape := ⟨2, ![8, 1]⟩
abbrev S1 : Shape := ⟨1, ![1]⟩
abbrev S_ : Shape := ⟨0, ![]⟩

abbrev nBuf : Space → Nat
  | .hbm => 16
  | .vmem => 10
  | .smem => 0
  | _ => 0

abbrev bufTy : (tb : Table) → Fin (tcTables nBuf tb) → BufTy
  | .hbm, ⟨0, _⟩ => ⟨S64x5x512, .f32⟩
  | .hbm, ⟨1, _⟩ => ⟨S64x5x512, .f32⟩
  | .hbm, ⟨2, _⟩ => ⟨S64x64, .f32⟩
  | .hbm, ⟨3, _⟩ => ⟨S320x512, .f32⟩
  | .hbm, ⟨4, _⟩ => ⟨S320x320, .f32⟩
  | .hbm, ⟨5, _⟩ => ⟨S64x64x5, .f32⟩
  | .hbm, ⟨6, _⟩ => ⟨S64x320, .f32⟩
  | .hbm, ⟨7, _⟩ => ⟨S64x5x320, .f32⟩
  | .hbm, ⟨8, _⟩ => ⟨S320x320, .f32⟩
  | .hbm, ⟨9, _⟩ => ⟨S320x320, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S320x512, .f32⟩
  | .local _ .vmem, ⟨1, _⟩ => ⟨S320x320, .f32⟩
  | .local _ .vmem, ⟨2, _⟩ => ⟨S8x320, .f32⟩
  | .local _ .vmem, ⟨3, _⟩ => ⟨S8x320, .f32⟩
  | .local _ .vmem, ⟨4, _⟩ => ⟨S8x320, .f32⟩
  | .local _ .vmem, ⟨5, _⟩ => ⟨S8x320, .f32⟩
  | .local _ .vmem, ⟨6, _⟩ => ⟨S8x320, .f32⟩
  | .local _ .vmem, ⟨7, _⟩ => ⟨S8x320, .f32⟩
  | .local _ .vmem, ⟨8, _⟩ => ⟨S1x1, .f32⟩
  | .local _ .vmem, ⟨9, _⟩ => ⟨S1x1, .f32⟩
  | _, _ => ⟨S64x5x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S320x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S320x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![40], ![false]⟩

def k1_cond2 (i : grid1.Coords) : BitVec 1 :=
  let arg0 : BitVec 32 := BitVec.ofNat 32 (i 0).val
  let c39_i32 : BitVec 32 := 39#32
  let v70 : BitVec 1 := Scalar.cmpi .eq arg0 c39_i32
  let v71 : BitVec 32 := Scalar.extui v70
  let c0_i32_29 : BitVec 32 := 0#32
  let v72 : BitVec 1 := Scalar.cmpi .ne v71 c0_i32_29
  v72

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x320 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x320 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x320 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  shapeCasts_S64x5x512_S320x512 : S64x5x512.ShapeCasts S320x512
  inb_S320x512_S320x512_0_0 : ∀ a, (![0, 0] : Fin 2 → Nat) a + S320x512.size a ≤ S320x512.size a
  h_S320x512 : 0 < S320x512.numel
  shapeCasts_S320x512_S320x512 : S320x512.ShapeCasts S320x512
  bitsLt_bf16_f32 : FTy.bits .bf16 < FTy.bits .f32
  transposes_S320x512_p1_0_S512x320 : S320x512.Transposes [1, 0] S512x320
  inb_S320x320_S320x320_0_0 : ∀ a, (![0, 0] : Fin 2 → Nat) a + S320x320.size a ≤ S320x320.size a
  h_S320x320 : 0 < S320x320.numel
  bcast_S64x64_S64x64x5_0_1 : S64x64.BroadcastsInDim S64x64x5 (![0, 1] : Fin 2 → Fin S64x64x5.rank)
  shapeCasts_S64x64x5_S64x320 : S64x64x5.ShapeCasts S64x320
  bcast_S64x320_S64x5x320_0_2 : S64x320.BroadcastsInDim S64x5x320 (![0, 2] : Fin 2 → Fin S64x5x320.rank)
  shapeCasts_S64x5x320_S320x320 : S64x5x320.ShapeCasts S320x320
  transposes_S320x320_S320x320_1_0 : S320x320.Transposes [1, 0] S320x320
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x320_S8x320_0_0 : ∀ a, (![0, 0] : Fin 2 → Nat) a + S8x320.size a ≤ S8x320.size a
  h_S8x320 : 0 < S8x320.numel
  shapeCasts_S8x320_S8x320 : S8x320.ShapeCasts S8x320
  shapeCasts_S8x320_S8x320x1 : S8x320.ShapeCasts S8x320x1
  shapeCasts_S8x320_S8x1x320 : S8x320.ShapeCasts S8x1x320
  broadcasts_S8x320x1_S8x320x320 : S8x320x1.Broadcasts S8x320x320
  broadcasts_S8x1x320_S8x320x320 : S8x1x320.Broadcasts S8x320x320
  iota_S8x320x320_d1_w32 : S8x320x320.Iotas .tc 32 [1]
  iota_S8x320x320_d2_w32 : S8x320x320.Iotas .tc 32 [2]
  reduces_S8x320x320_S8x320 : S8x320x320.Reduces [1] S8x320
  reduces_S8x320_S8 : S8x320.Reduces [1] S8
  shapeCasts_S8_S8x1 : S8.ShapeCasts S8x1
  reduces_S8x1_S1 : S8x1.Reduces [0] S1
  shapeCasts_S1_S1x1 : S1.ShapeCasts S1x1
  shapeCasts_S1x1_S_ : S1x1.ShapeCasts S_
  dot_S320x512_S512x320_S320x320_1_0_0_1_n_n_wf : DotDims.WF S320x512 S512x320 S320x320 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S320x512.size a ≤ S320x512.size a
  hwx0_0 : ∀ i : grid0.Coords, EltTy.bits .f32 = 32 ∨ (Rect.block (s := S320x512) S320x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x320.size a ≤ S320x320.size a
  hwx0_1 : ∀ i : grid0.Coords, EltTy.bits .f32 = 32 ∨ (Rect.block (s := S320x320) S320x320.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x320.size a ≤ S320x320.size a
  hwx1_0 : ∀ i : grid1.Coords, EltTy.bits .f32 = 32 ∨ (Rect.block (s := S320x320) S8x320.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x320.size a ≤ S320x320.size a
  hwx1_1 : ∀ i : grid1.Coords, EltTy.bits .f32 = 32 ∨ (Rect.block (s := S320x320) S8x320.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x320.size a ≤ S320x320.size a
  hwx1_2 : ∀ i : grid1.Coords, EltTy.bits .f32 = 32 ∨ (Rect.block (s := S320x320) S8x320.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S320x512_S512x320_S320x320_1_0_0_1_n_n : DotDims S320x512 S512x320 S320x320 where
  lhsContracting := [1]
  rhsContracting := [0]
  lhsNonContracting := [0]
  rhsNonContracting := [1]
  lhsBatch := []
  rhsBatch := []
  wf := dot_S320x512_S512x320_S320x320_1_0_0_1_n_n_wf

abbrev win0_0 : Pipeline.Window sig grid0 :=
  Pipeline.Window.ofSpec (Memref.whole main_v0) S320x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S320x320.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v5) S8x320.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8x320.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x320.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S64x5x512 : Shape := ⟨3, ![64, 5, 512]⟩
abbrev S64x64 : Shape := ⟨2, ![64, 64]⟩
abbrev S320x512 : Shape := ⟨2, ![320, 512]⟩
abbrev S512x320 : Shape := ⟨2, ![512, 320]⟩
abbrev S320x320 : Shape := ⟨2, ![320, 320]⟩
abbrev S64x64x5 : Shape := ⟨3, ![64, 64, 5]⟩
abbrev S64x320 : Shape := ⟨2, ![64, 320]⟩
abbrev S64x5x320 : Shape := ⟨3, ![64, 5, 320]⟩
abbrev S_ : Shape := ⟨0, ![]⟩
abbrev S320x1x320 : Shape := ⟨3, ![320, 1, 320]⟩
abbrev S320x320x1 : Shape := ⟨3, ![320, 320, 1]⟩
abbrev S1x320x320 : Shape := ⟨3, ![1, 320, 320]⟩
abbrev S320x320x320 : Shape := ⟨3, ![320, 320, 320]⟩

abbrev nBuf : Space → Nat
  | .hbm => 92
  | .vmem => 0
  | .smem => 0
  | _ => 0

abbrev bufTy : (tb : Table) → Fin (tcTables nBuf tb) → BufTy
  | .hbm, ⟨0, _⟩ => ⟨S64x5x512, .f32⟩
  | .hbm, ⟨1, _⟩ => ⟨S64x5x512, .f32⟩
  | .hbm, ⟨2, _⟩ => ⟨S64x64, .f32⟩
  | .hbm, ⟨3, _⟩ => ⟨S320x512, .f32⟩
  | .hbm, ⟨4, _⟩ => ⟨S512x320, .f32⟩
  | .hbm, ⟨5, _⟩ => ⟨S320x320, .f32⟩
  | .hbm, ⟨6, _⟩ => ⟨S64x64x5, .f32⟩
  | .hbm, ⟨7, _⟩ => ⟨S64x320, .f32⟩
  | .hbm, ⟨8, _⟩ => ⟨S64x5x320, .f32⟩
  | .hbm, ⟨9, _⟩ => ⟨S320x320, .f32⟩
  | .hbm, ⟨10, _⟩ => ⟨S320x320, .i32⟩
  | .hbm, ⟨11, _⟩ => ⟨S320x320, .i32⟩
  | .hbm, ⟨12, _⟩ => ⟨S_, .i32⟩
  | .hbm, ⟨13, _⟩ => ⟨S320x320, .i32⟩
  | .hbm, ⟨14, _⟩ => ⟨S320x320, .i32⟩
  | .hbm, ⟨15, _⟩ => ⟨S320x320, .i1⟩
  | .hbm, ⟨16, _⟩ => ⟨S320x320, .f32⟩
  | .hbm, ⟨17, _⟩ => ⟨S_, .f32⟩
  | .hbm, ⟨18, _⟩ => ⟨S320x320, .f32⟩
  | .hbm, ⟨19, _⟩ => ⟨S320x320, .f32⟩
  | .hbm, ⟨20, _⟩ => ⟨S320x1x320, .f32⟩
  | .hbm, ⟨21, _⟩ => ⟨S320x320x1, .f32⟩
  | .hbm, ⟨22, _⟩ => ⟨S1x320x320, .f32⟩
  | .hbm, ⟨23, _⟩ => ⟨S320x320x320, .f32⟩
  | .hbm, ⟨24, _⟩ => ⟨S320x320x320, .f32⟩
  | .hbm, ⟨25, _⟩ => ⟨S320x320x320, .f32⟩
  | .hbm, ⟨26, _⟩ => ⟨S320x320x1, .f32⟩
  | .hbm, ⟨27, _⟩ => ⟨S1x320x320, .f32⟩
  | .hbm, ⟨28, _⟩ => ⟨S320x320x320, .f32⟩
  | .hbm, ⟨29, _⟩ => ⟨S320x320x320, .f32⟩
  | .hbm, ⟨30, _⟩ => ⟨S320x320x320, .f32⟩
  | .hbm, ⟨31, _⟩ => ⟨S320x320x320, .f32⟩
  | .hbm, ⟨32, _⟩ => ⟨S_, .f32⟩
  | .hbm, ⟨33, _⟩ => ⟨S320x320x320, .f32⟩
  | .hbm, ⟨34, _⟩ => ⟨S320x320x320, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S320x320x320, .f32⟩
  | .hbm, ⟨39, _⟩ => ⟨S320x320x320, .f32⟩
  | .hbm, ⟨40, _⟩ => ⟨S_, .f32⟩
  | .hbm, ⟨41, _⟩ => ⟨S320x320x320, .f32⟩
  | .hbm, ⟨42, _⟩ => ⟨S320x320x320, .f32⟩
  | .hbm, ⟨43, _⟩ => ⟨S320x320x320, .f32⟩
  | .hbm, ⟨44, _⟩ => ⟨S_, .f32⟩
  | .hbm, ⟨45, _⟩ => ⟨S320x320x320, .f32⟩
  | .hbm, ⟨46, _⟩ => ⟨S320x320x320, .f32⟩
  | .hbm, ⟨47, _⟩ => ⟨S_, .f32⟩
  | .hbm, ⟨48, _⟩ => ⟨S320x320x320, .f32⟩
  | .hbm, ⟨49, _⟩ => ⟨S320x320x320, .f32⟩
  | .hbm, ⟨50, _⟩ => ⟨S320x320x320, .f32⟩
  | .hbm, ⟨51, _⟩ => ⟨S320x320x320, .f32⟩
  | .hbm, ⟨52, _⟩ => ⟨S_, .f32⟩
  | .hbm, ⟨53, _⟩ => ⟨S320x320, .f32⟩
  | .hbm, ⟨54, _⟩ => ⟨S_, .f32⟩
  | .hbm, ⟨55, _⟩ => ⟨S320x320, .f32⟩
  | .hbm, ⟨56, _⟩ => ⟨S320x320, .f32⟩
  | .hbm, ⟨57, _⟩ => ⟨S320x320x320, .f32⟩
  | .hbm, ⟨58, _⟩ => ⟨S_, .f32⟩
  | .hbm, ⟨59, _⟩ => ⟨S320x320x320, .f32⟩
  | .hbm, ⟨60, _⟩ => ⟨S320x320x320, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S320x320x320, .f32⟩
  | .hbm, ⟨65, _⟩ => ⟨S320x320x320, .f32⟩
  | .hbm, ⟨66, _⟩ => ⟨S_, .f32⟩
  | .hbm, ⟨67, _⟩ => ⟨S320x320x320, .f32⟩
  | .hbm, ⟨68, _⟩ => ⟨S320x320x320, .f32⟩
  | .hbm, ⟨69, _⟩ => ⟨S320x320x320, .f32⟩
  | .hbm, ⟨70, _⟩ => ⟨S_, .f32⟩
  | .hbm, ⟨71, _⟩ => ⟨S320x320x320, .f32⟩
  | .hbm, ⟨72, _⟩ => ⟨S320x320x320, .f32⟩
  | .hbm, ⟨73, _⟩ => ⟨S_, .f32⟩
  | .hbm, ⟨74, _⟩ => ⟨S320x320x320, .f32⟩
  | .hbm, ⟨75, _⟩ => ⟨S320x320x320, .f32⟩
  | .hbm, ⟨76, _⟩ => ⟨S320x320x320, .f32⟩
  | .hbm, ⟨77, _⟩ => ⟨S320x320x320, .f32⟩
  | .hbm, ⟨78, _⟩ => ⟨S_, .f32⟩
  | .hbm, ⟨79, _⟩ => ⟨S320x320, .f32⟩
  | .hbm, ⟨80, _⟩ => ⟨S_, .f32⟩
  | .hbm, ⟨81, _⟩ => ⟨S320x320, .f32⟩
  | .hbm, ⟨82, _⟩ => ⟨S320x320, .f32⟩
  | .hbm, ⟨83, _⟩ => ⟨S320x320, .f32⟩
  | .hbm, ⟨84, _⟩ => ⟨S320x320, .f32⟩
  | .hbm, ⟨85, _⟩ => ⟨S320x320, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S64x5x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_cst_9 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_cst_13 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_14 : Ref sig .tc := ⟨.hbm, 86, rfl⟩
abbrev main_v57 : Ref sig .tc := ⟨.hbm, 87, rfl⟩
abbrev main_cst_15 : Ref sig .tc := ⟨.hbm, 88, rfl⟩
abbrev main_v58 : Ref sig .tc := ⟨.hbm, 89, rfl⟩
abbrev main_cst_16 : Ref sig .tc := ⟨.hbm, 90, rfl⟩
abbrev main_v59 : Ref sig .tc := ⟨.hbm, 91, rfl⟩

abbrev nD : Nat := 1
abbrev τ : Topo := Topo.v7x

variable {F : FTy → Type} [FloatOps F]

class Facts₀ : Prop where
  shapeCasts_S64x5x512_S320x512 : S64x5x512.ShapeCasts S320x512
  transposes_S320x512_S512x320_1_0 : S320x512.Transposes [1, 0] S512x320
  bcast_S64x64_S64x64x5_0_1 : S64x64.BroadcastsInDim S64x64x5 (![0, 1] : Fin 2 → Fin S64x64x5.rank)
  shapeCasts_S64x64x5_S64x320 : S64x64x5.ShapeCasts S64x320
  bcast_S64x320_S64x5x320_0_2 : S64x320.BroadcastsInDim S64x5x320 (![0, 2] : Fin 2 → Fin S64x5x320.rank)
  shapeCasts_S64x5x320_S320x320 : S64x5x320.ShapeCasts S320x320
  bcast_S_S320x320 : S_.BroadcastsInDim S320x320 (![] : Fin 0 → Fin S320x320.rank)
  bcast_S320x320_S320x1x320_0_2 : S320x320.BroadcastsInDim S320x1x320 (![0, 2] : Fin 2 → Fin S320x1x320.rank)
  bcast_S320x320_S320x320x1_0_1 : S320x320.BroadcastsInDim S320x320x1 (![0, 1] : Fin 2 → Fin S320x320x1.rank)
  bcast_S320x320_S1x320x320_1_2 : S320x320.BroadcastsInDim S1x320x320 (![1, 2] : Fin 2 → Fin S1x320x320.rank)
  bcast_S320x320x1_S320x320x320_0_1_2 : S320x320x1.BroadcastsInDim S320x320x320 (![0, 1, 2] : Fin 3 → Fin S320x320x320.rank)
  bcast_S1x320x320_S320x320x320_0_1_2 : S1x320x320.BroadcastsInDim S320x320x320 (![0, 1, 2] : Fin 3 → Fin S320x320x320.rank)
  bcast_S_S320x320x320 : S_.BroadcastsInDim S320x320x320 (![] : Fin 0 → Fin S320x320x320.rank)
  bcast_S320x1x320_S320x320x320_0_1_2 : S320x1x320.BroadcastsInDim S320x320x320 (![0, 1, 2] : Fin 3 → Fin S320x320x320.rank)
  reducesTo_S320x320x320_S320x320_d0 : S320x320x320.ReducesTo [0] S320x320
  h_S_ : 0 < S_.numel
  reducesTo_S320x320_S_d0_1 : S320x320.ReducesTo [0, 1] S_
  dot_S320x512_S512x320_S320x320_1_0_0_1_n_n_wf : DotDims.WF S320x512 S512x320 S320x320 [1] [0] [0] [1] [] []

variable [Facts₀]

def dot_S320x512_S512x320_S320x320_1_0_0_1_n_n : DotDims S320x512 S512x320 S320x320 where
  lhsContracting := [1]
  rhsContracting := [0]
  lhsNonContracting := [0]
  rhsNonContracting := [1]
  lhsBatch := []
  rhsBatch := []
  wf := dot_S320x512_S512x320_S320x320_1_0_0_1_n_n_wf

class Facts : Prop extends Facts₀ where

variable [Facts]
-- ==== Proof.KRegion0.lean ====
/-
  The first kernel region (the Gram matrix of the 320 rows, one grid point), at ANY contents V of the core's
  buffers when the region is entered: the body loads the whole [320, 512] block, and stores into the whole
  [320, 320] output block the product of the rows with their transpose; so after the one point the output's
  staging buffer holds that product of the input's block, the input's buffer is as it was, and nothing else
  of the core's state is touched. Stated at every float instance.
-/
import proofs.«126084_j66812511256800_1_alg».proof.Proof.Gen.Kernel.Launch
import proofs.«126084_j66812511256800_1_alg».proof.Proof.Gen.Kernel.Skeleton
import proofs.«126084_j66812511256800_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data over V whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The two whole-block rectangles the body reads and writes through. -/
abbrev r0_0 : Rect S320x512 := Rect.unit (s := S320x512) ![0, 0] S320x512.size inb_S320x512_S320x512_0_0
abbrev r0_1 : Rect S320x320 := Rect.unit (s := S320x320) ![0, 0] S320x320.size inb_S320x320_S320x320_0_0

/-- The output's staging buffer after the body: its one store, of the product of the loaded block's rows. -/
def out0_1 (x0 : Vec F S320x512 .f32) : Vec F S320x320 .f32 :=
  View.canon [⟨r0_1, k0_pay1 (View.ld x0 r0_0)⟩]

/-- The one store covers the buffer. -/
theorem cover0_1 (p0 : Vec F S320x320 .f32) (y : S320x320.Idx) :
    ∃ pc ∈ ([⟨r0_1, p0⟩] : List (View.Piece (Elt F) S320x320 .f32)), y ∈ pc.1.set :=
  View.cover_of_tiled [⟨r0_1, p0⟩] S320x320.size (by rfl) y

set_option maxHeartbeats 1000000 in
/-- The body on whole staging memrefs, the input's at contents x0 and the output's at anything, runs to the
    continuation with the input's as it was and the output's at out0_1 x0. -/
theorem sound_kernel0 (c : Dev nD) (E : Set ℕ) (i : grid0.Coords) (arg1 : Memref sig .tc .vmem S320x512 .f32) (harg1 : arg1.IsWhole) (arg2 : Memref sig .tc .vmem S320x320 .f32) (harg2 : arg2.IsWhole)
    (x0 : Vec F S320x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__score_kernel i arg1 harg1 arg2 harg2) K := by
  simp only [cc0__score_kernel_eq_skeleton]; unfold cc0__score_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The region's proof data on core c: its arrays as entered; after the point the input's buffer at its block
    and the output's at the product of that block; the rest of the core's scoped state untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at the point, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region's pipeline, at its one point. -/
theorem body_obligation0 (c : Dev nD) : BodyObligation (dat0 (F := F) V c) (defs₀ (F := F)) Variants.none () Set.univ := fun t => by
  rw [bigSep_W0, bigSep_W0]
  exact sound_body0 V c t

end Region0

end Cert.Kernel.Frame

end
-- ==== Proof.KRuns1.lean ====
/-
  The second kernel region (forty grid points, eight rows of the three 320 × 320 matrices per point; a [1, 1]
  scratch accumulator carried from point to point; a [1, 1] output stored at the last point only): what the
  three kinds of point do to the core's memory.
    first point:   the scratch is set to zero, then to zero plus the point's partial sum;
    middle points: the scratch goes from what the point before left to that plus the point's partial sum;
    last point:    as a middle point, and then the scratch is copied into the output's buffer.
  The input blocks are only read. Each run is stated on any whole staging memrefs, at every float instance;
  what each buffer ends with is the list of the body's stores into it, last first.
-/
import proofs.«126084_j66812511256800_1_alg».proof.Proof.Gen.Kernel.Launch
import proofs.«126084_j66812511256800_1_alg».proof.Proof.Gen.Kernel.Skeleton
import proofs.«126084_j66812511256800_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

/-- The first branch's condition from the grid coordinate (the body's scalar chain): the point is the first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second branch's condition: the point is the last. -/
abbrev cond1_1 (i : grid1.Coords) : Prop := k1_cond2 i = 1#1
theorem hcond1_1 : ∀ t : Fin cfg1.N, cond1_1 (grid1.coords t) ↔ t.val = 39 :=
  (by decide +kernel : ∀ t : Fin grid1.N, cond1_1 (grid1.coords t) ↔ t.val = 39)

/-- The inputs are never idle; the output is idle, and not written back, exactly away from the last point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- Each window's current staging memref at point t, as the pipeline passes it, and its wholeness. -/
abbrev ms1_0 (t : Fin cfg1.N) : Memref sig .tc .vmem S8x320 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x320 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x320 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The scratch accumulator, a whole scoped buffer of the kernel's own, and views through which contents are stated. -/
abbrev scM1 : Memref sig .tc .vmem S1x1 .f32 := Memref.whole cc1_scratch0
abbrev VS1 : View sig .tc .vmem S1x1 .f32 := scM1.view
abbrev VO1_3 : View sig .tc .vmem S1x1 .f32 := (Memref.whole cc1_stg3_0 : Memref sig .tc .vmem S1x1 .f32).view
/-- The other region's two staging buffers, which this region never touches. -/
abbrev oM1_0 : Memref sig .tc .vmem S320x512 .f32 := Memref.whole cc0_stg0_0
abbrev oM1_1 : Memref sig .tc .vmem S320x320 .f32 := Memref.whole cc0_stg1_0

/-- What the region may use beside its windows: the other region's staging buffers and the scratch at some
    contents, and the generator register at some state. -/
theorem PhiA1_eq (c : Dev nD) :
    (Pipeline.ΦA spec1 c : sProp 𝕄)
      = iprop(iprop((∃ d, owns (c : Thread nD τ) oM1_0 fullShare d) ∗ (∃ d, owns (c : Thread nD τ) oM1_1 fullShare d) ∗ (∃ d, owns (c : Thread nD τ) scM1 fullShare d)) ∗ (∃ r, prngReg c r)) := by
  unfold Pipeline.ΦA; rw [scopedRest1_eq]; simp only [scM1, oM1_0, oM1_1, owns_whole]; try rfl

set_option maxHeartbeats 1000000 in
/-- FIRST POINT (first branch taken, last not): the scratch at anything ends with the stores LS into it. -/
noncomputable def kernelRun1_A (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 x1 x2 : Vec F S8x320 .f32) :
    { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f LS)) -∗ K ⟨⟩))
          ⊢ wp frame (wpE (defs₀ (F := F)) Variants.none c none) E (cc1__reduce_kernel i arg1 harg1 arg2 harg2 arg3 harg3 arg4 harg4 arg5 harg5) K } := by
  refine ⟨?_, fun E K => ?run⟩
  case run =>
    simp only [cc1__reduce_kernel_eq_skeleton]; unfold cc1__reduce_kernel_skel
    simp only [k1_part1_eq_skeleton]
    unfold owns
    iintro ⟨⟨%f0, %hf0, H0⟩, ⟨%f1, %hf1, H1⟩, ⟨%f2, %hf2, H2⟩, ⟨%ds, %fs, -, HS⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 1000000 in
/-- MIDDLE POINTS (neither branch taken): the scratch at xs ends with the stores LS into it. -/
noncomputable def kernelRun1_B (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 x1 x2 : Vec F S8x320 .f32) (xs : Vec F S1x1 .f32) :
    { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f LS)) -∗ K ⟨⟩))
          ⊢ wp frame (wpE (defs₀ (F := F)) Variants.none c none) E (cc1__reduce_kernel i arg1 harg1 arg2 harg2 arg3 harg3 arg4 harg4 arg5 harg5) K } := by
  refine ⟨?_, fun E K => ?run⟩
  case run =>
    simp only [cc1__reduce_kernel_eq_skeleton]; unfold cc1__reduce_kernel_skel
    simp only [k1_part1_eq_skeleton]
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2; obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 1000000 in
/-- LAST POINT (first branch not taken, last taken): the scratch at xs ends with the stores LS, the output's
    buffer at anything with the stores L3. -/
noncomputable def kernelRun1_C (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 x1 x2 : Vec F S8x320 .f32) (xs : Vec F S1x1 .f32) :
    Σ' (L3 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS)) -∗ K ⟨⟩))
          ⊢ wp frame (wpE (defs₀ (F := F)) Variants.none c none) E (cc1__reduce_kernel i arg1 harg1 arg2 harg2 arg3 harg3 arg4 harg4 arg5 harg5) K } := by
  refine ⟨?_, ?_, fun E K => ?run⟩
  case run =>
    simp only [cc1__reduce_kernel_eq_skeleton]; unfold cc1__reduce_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2; obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Region1

end Cert.Kernel.Frame

end
-- ==== Proof.KRegion1.lean ====
/-
  The second kernel region, at ANY contents V of the core's buffers when the region is entered: what the
  scratch accumulator and the output's staging buffer hold after each of the forty points, by recursion on
  the point (the first point starts the accumulator, every later one continues from what the point before
  left, the last one also fills the output's buffer); the region's invariant (before the first point the
  scratch holds anything; afterwards exactly what the point before left); the proof data; and the body
  obligation at every point, by the three runs. Stated at every float instance.
-/
import proofs.«126084_j66812511256800_1_alg».proof.Proof.KRuns1

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, for any proof data over V whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each kind of point leaves -/

/-- The first point's stores into the scratch cover it, -/
theorem scover1_A (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i) (x0 x1 x2 : Vec F S8x320 .f32) (y : S1x1.Idx) :
    ∃ pc ∈ (kernelRun1_A c i arg1 harg1 arg2 harg2 arg3 harg3 arg4 harg4 arg5 harg5 hc0 hc1 x0 x1 x2).1, y ∈ pc.1.set :=
  View.cover_of_tiledL (kernelRun1_A c i arg1 harg1 arg2 harg2 arg3 harg3 arg4 harg4 arg5 harg5 hc0 hc1 x0 x1 x2).1 S1x1.size (by sl_kernel_rfl) y
/-- and leave in it: -/
def sout1_A (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i) (x0 x1 x2 : Vec F S8x320 .f32) : Vec F S1x1 .f32 :=
  VS1.read (Elt F) (VS1.writes (Elt F) VS1.junk (kernelRun1_A c i arg1 harg1 arg2 harg2 arg3 harg3 arg4 harg4 arg5 harg5 hc0 hc1 x0 x1 x2).1)

/-- A middle point's stores into the scratch cover it, -/
theorem scover1_B (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 x2 : Vec F S8x320 .f32) (xs : Vec F S1x1 .f32) (y : S1x1.Idx) :
    ∃ pc ∈ (kernelRun1_B c i arg1 harg1 arg2 harg2 arg3 harg3 arg4 harg4 arg5 harg5 hc0 hc1 x0 x1 x2 xs).1, y ∈ pc.1.set :=
  View.cover_of_tiledL (kernelRun1_B c i arg1 harg1 arg2 harg2 arg3 harg3 arg4 harg4 arg5 harg5 hc0 hc1 x0 x1 x2 xs).1 S1x1.size (by sl_kernel_rfl) y
/-- and leave in it: -/
def sout1_B (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 x2 : Vec F S8x320 .f32) (xs : Vec F S1x1 .f32) : Vec F S1x1 .f32 :=
  VS1.read (Elt F) (VS1.writes (Elt F) VS1.junk (kernelRun1_B c i arg1 harg1 arg2 harg2 arg3 harg3 arg4 harg4 arg5 harg5 hc0 hc1 x0 x1 x2 xs).1)

/-- The last point's stores into the scratch, and into the output's buffer, cover them, -/
theorem scover1_C (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 x2 : Vec F S8x320 .f32) (xs : Vec F S1x1 .f32) (y : S1x1.Idx) :
    ∃ pc ∈ (kernelRun1_C c i arg1 harg1 arg2 harg2 arg3 harg3 arg4 harg4 arg5 harg5 hc0 hc1 x0 x1 x2 xs).2.1, y ∈ pc.1.set :=
  View.cover_of_tiledL (kernelRun1_C c i arg1 harg1 arg2 harg2 arg3 harg3 arg4 harg4 arg5 harg5 hc0 hc1 x0 x1 x2 xs).2.1 S1x1.size (by sl_kernel_rfl) y
theorem cover1_C (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 x2 : Vec F S8x320 .f32) (xs : Vec F S1x1 .f32) (y : S1x1.Idx) :
    ∃ pc ∈ (kernelRun1_C c i arg1 harg1 arg2 harg2 arg3 harg3 arg4 harg4 arg5 harg5 hc0 hc1 x0 x1 x2 xs).1, y ∈ pc.1.set :=
  View.cover_of_tiledL (kernelRun1_C c i arg1 harg1 arg2 harg2 arg3 harg3 arg4 harg4 arg5 harg5 hc0 hc1 x0 x1 x2 xs).1 S1x1.size (by sl_kernel_rfl) y
/-- and leave in them: -/
def sout1_C (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 x2 : Vec F S8x320 .f32) (xs : Vec F S1x1 .f32) : Vec F S1x1 .f32 :=
  VS1.read (Elt F) (VS1.writes (Elt F) VS1.junk (kernelRun1_C c i arg1 harg1 arg2 harg2 arg3 harg3 arg4 harg4 arg5 harg5 hc0 hc1 x0 x1 x2 xs).2.1)
def out1_C (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 x2 : Vec F S8x320 .f32) (xs : Vec F S1x1 .f32) : Vec F S1x1 .f32 :=
  VO1_3.read (Elt F) (VO1_3.writes (Elt F) VO1_3.junk (kernelRun1_C c i arg1 harg1 arg2 harg2 arg3 harg3 arg4 harg4 arg5 harg5 hc0 hc1 x0 x1 x2 xs).1)

/-- Away from the last point the body stores nothing into the output's buffer, and the pipeline neither writes it
    back nor reads it: a value nothing consults stands for its contents there. -/
def idleOut : Vec F S1x1 .f32 := VO1_3.read (Elt F) VO1_3.junk

theorem c0_zero (hn : 0 < cfg1.N) : cond1_0 (grid1.coords (⟨0, hn⟩ : Fin cfg1.N)) := (hcond1_0 ⟨0, hn⟩).mpr rfl
theorem c1_zero (hn : 0 < cfg1.N) : ¬cond1_1 (grid1.coords (⟨0, hn⟩ : Fin cfg1.N)) := fun h => absurd ((hcond1_1 ⟨0, hn⟩).mp h) (by show ¬ (0 : ℕ) = 39; omega)
theorem c0_succ (n : ℕ) (hn : n + 1 < cfg1.N) : ¬cond1_0 (grid1.coords (⟨n + 1, hn⟩ : Fin cfg1.N)) := fun h => absurd ((hcond1_0 ⟨n + 1, hn⟩).mp h) (Nat.succ_ne_zero n)

/-! ## The accumulation -/

/-- What the output's staging buffer and the scratch hold after the body at position n (output first). -/
def outsAt1 (c : Dev nD) : (n : ℕ) → n < cfg1.N → Vec F S1x1 .f32 × Vec F S1x1 .f32
  | 0, hn => (idleOut, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) (c0_zero hn) (c1_zero hn) (iblk1 V c 0 ⟨0, hn⟩) (iblk1 V c 1 ⟨0, hn⟩) (iblk1 V c 2 ⟨0, hn⟩))
  | n + 1, hn =>
    if h1 : n + 1 = 39 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (c0_succ n hn) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (c0_succ n hn) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else
      (idleOut,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (c0_succ n hn) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- The recursion at the first point, -/
theorem outsAt1_A (c : Dev nD) (t : Fin cfg1.N) (h0 : t.val = 0) (hc0 : cond1_0 (grid1.coords t)) (hc1 : ¬cond1_1 (grid1.coords t)) :
    outsAt1 V c t.val t.isLt = (idleOut, sout1_A c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t)) := by
  obtain ⟨n, hn⟩ := t
  cases n with
  | zero => rfl
  | succ n => exact absurd h0 (Nat.succ_ne_zero n)

/-- at a middle point, -/
theorem outsAt1_B (c : Dev nD) (t : Fin cfg1.N) (h0 : t.val ≠ 0) (h1 : t.val ≠ 39) (hc0 : ¬cond1_0 (grid1.coords t)) (hc1 : ¬cond1_1 (grid1.coords t)) :
    outsAt1 V c t.val t.isLt = (idleOut, sout1_B c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- and at the last. -/
theorem outsAt1_C (c : Dev nD) (t : Fin cfg1.N) (h0 : t.val ≠ 0) (h1 : t.val = 39) (hc0 : ¬cond1_0 (grid1.coords t)) (hc1 : cond1_1 (grid1.coords t)) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant -/

/-- Before position n: at the region's entry what the launch hands over (every scoped buffer that is no staging
    buffer of the region at anything, the generator register at some state); after a point, the same with the
    scratch at what that point left. -/
def PhiS (c : Dev nD) : (n : ℕ) → n ≤ cfg1.N → sProp 𝕄
  | 0, _ => Pipeline.ΦA spec1 c
  | n + 1, hn => iprop(iprop((∃ d, owns (c : Thread nD τ) oM1_0 fullShare d) ∗ (∃ d, owns (c : Thread nD τ) oM1_1 fullShare d) ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ d, owns (c : Thread nD τ) oM1_0 fullShare d) ∗ (∃ d, owns (c : Thread nD τ) oM1_1 fullShare d) ∗ owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(iprop((∃ d, owns (c : Thread nD τ) oM1_0 fullShare d) ∗ (∃ d, owns (c : Thread nD τ) oM1_1 fullShare d) ∗ owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 40 := lt_of_lt_of_eq t.isLt (show cfg1.N = 40 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [outsAt1_A V c t h0 hc0 hc1]
    unfold sout1_A; (try dsimp only)
    rw [PhiS_castSucc V c t, PhiS_zero V c _ _ h0, PhiA1_eq]
    iintro ⟨⟨⟨Hr0, Hr1, HS⟩, Hg⟩, Ho, ⟨%d0, H0⟩, ⟨%d1, H1⟩, ⟨%d2, H2⟩, H3⟩
    iapply ((kernelRun1_A c (grid1.coords t) _ _ _ _ _ _ _ _ _ _ hc0 hc1 (iblk1 V c 0 t) (iblk1 V c 1 t) (iblk1 V c 2 t)).2 Set.univ _)
    isplitl [H0]; · iexact H0
    isplitl [H1]; · iexact H1
    isplitl [H2]; · iexact H2
    isplitl [HS]; · iexact HS
    iintro ⟨H0, H1, H2, ⟨%es, HS⟩⟩
    isplitl [Hr0 Hr1 HS Hg]
    · isplitl [Hr0 Hr1 HS]
      · isplitl [Hr0]; · iexact Hr0
        isplitl [Hr1]; · iexact Hr1
        unfold owns; iexists _; isplitr
        swap; · iexact HS
        ipureintro; exact View.read_writes_of_cover _ _ _ _ _ (scover1_A c _ _ _ _ _ _ _ _ _ _ _ _ _ _ _ _)
      iexact Hg
    isplitl [Ho]; · iexact Ho
    isplitl [H0]; · iexact H0
    isplitl [H1]; · iexact H1
    isplitl [H2]; · iexact H2
    iexact H3
  · have hc0 : ¬cond1_0 (grid1.coords t) := fun h => h0 ((hcond1_0 t).mp h)
    by_cases h1 : t.val = 39
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [outsAt1_C V c t h0 h1 hc0 hc1]
      unfold out1_C sout1_C; (try dsimp only)
      rw [PhiS_castSucc V c t, PhiS_pos V c _ _ h0]
      iintro ⟨⟨⟨Hr0, Hr1, HS⟩, Hg⟩, Ho, ⟨%d0, H0⟩, ⟨%d1, H1⟩, ⟨%d2, H2⟩, ⟨%d3, H3⟩⟩
      iapply ((kernelRun1_C c (grid1.coords t) _ _ _ _ _ _ _ _ _ _ hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Hr0 Hr1 HS Hg]
      · isplitl [Hr0 Hr1 HS]
        · isplitl [Hr0]; · iexact Hr0
          isplitl [Hr1]; · iexact Hr1
          unfold owns; iexists _; isplitr
          swap; · iexact HS
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · have hc1 : ¬cond1_1 (grid1.coords t) := fun h => h1 ((hcond1_1 t).mp h)
      rw [Dat.leavesExact_idle (dat1 V c) 3 t (idleAt1_3 t hc1) (noFlush1_3 t hc1)]
      rw [outsAt1_B V c t h0 h1 hc0 hc1]
      unfold sout1_B; (try dsimp only)
      rw [PhiS_castSucc V c t, PhiS_pos V c _ _ h0]
      iintro ⟨⟨⟨Hr0, Hr1, HS⟩, Hg⟩, Ho, ⟨%d0, H0⟩, ⟨%d1, H1⟩, ⟨%d2, H2⟩, H3⟩
      iapply ((kernelRun1_B c (grid1.coords t) _ _ _ _ _ _ _ _ _ _ hc0 hc1 (iblk1 V c 0 t) (iblk1 V c 1 t) (iblk1 V c 2 t) _).2 Set.univ _)
      isplitl [H0]; · iexact H0
      isplitl [H1]; · iexact H1
      isplitl [H2]; · iexact H2
      isplitl [HS]; · iexact HS
      iintro ⟨H0, H1, H2, ⟨%es, HS⟩⟩
      isplitl [Hr0 Hr1 HS Hg]
      · isplitl [Hr0 Hr1 HS]
        · isplitl [Hr0]; · iexact Hr0
          isplitl [Hr1]; · iexact Hr1
          unfold owns; iexists _; isplitr
          swap; · iexact HS
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- and after the last point the invariant gives it back, the scratch's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 40 := N_1; omega), PhiA1_eq]
  iintro ⟨⟨Hr0, Hr1, HS⟩, Hg⟩
  isplitl [Hr0 Hr1 HS]
  · isplitl [Hr0]; · iexact Hr0
    isplitl [Hr1]; · iexact Hr1
    iexists _; iexact HS
  iexact Hg

end Region1

end Cert.Kernel.Frame

end
-- ==== Proof.KMain.lean ====
/-
  The whole program's run: a reshape, the first region, five layout operations, the second region, five scalar
  operations. The contents of the core's unscoped buffers at each boundary are a fold from the launch memory —
  a stretch of host operations applies them; a region leaves its arrays at what its write-backs make of them and
  every other buffer alone. Every weakly fair execution terminates, and at the end EVERY unscoped buffer holds
  what that fold says; no step writes an argument array, so the three arguments end as launched. Stated at
  every float instance.
-/
import proofs.«126084_j66812511256800_1_alg».proof.Proof.KRegion0
import proofs.«126084_j66812511256800_1_alg».proof.Proof.KRegion1
import proofs.«126084_j66812511256800_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the reshape (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the five layout operations (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the five scalar operations: the end. -/
abbrev W5 : Dev nD → Valuation τ sig (Elt F) := fun c => StableHlo.after hostOps2 (W4 m c)

/-! ## No step writes an argument -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-! ## The proof data family and the thread state -/

/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (V3 m) c).Φ (Fin.last cfg1.N) from rfl]
    refine (hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and every
    unscoped buffer ends at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (StableHlo.after hostOps2 (W4 m c)) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

end Cert.Kernel.Frame

end
-- ==== Proof.KIRegion0.lean ====
/-
  The first kernel region (the Gram matrix of the 320 rows, one grid point), at ANY contents V of the core's
  buffers when the region is entered: the body loads the whole [320, 512] block, and stores into the whole
  [320, 320] output block the product of the rows with their transpose; so after the one point the output's
  staging buffer holds that product of the input's block, the input's buffer is as it was, and nothing else
  of the core's state is touched. Stated at every float instance.
-/
import proofs.«126084_j66812511256800_1_alg».proof.Proof.Gen.KernelIdeal.Launch
import proofs.«126084_j66812511256800_1_alg».proof.Proof.Gen.KernelIdeal.Skeleton
import proofs.«126084_j66812511256800_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data over V whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The two whole-block rectangles the body reads and writes through. -/
abbrev r0_0 : Rect S320x512 := Rect.unit (s := S320x512) ![0, 0] S320x512.size inb_S320x512_S320x512_0_0
abbrev r0_1 : Rect S320x320 := Rect.unit (s := S320x320) ![0, 0] S320x320.size inb_S320x320_S320x320_0_0

/-- The output's staging buffer after the body: its one store, of the product of the loaded block's rows. -/
def out0_1 (x0 : Vec F S320x512 .f32) : Vec F S320x320 .f32 :=
  View.canon [⟨r0_1, k0_pay1 (View.ld x0 r0_0)⟩]

/-- The one store covers the buffer. -/
theorem cover0_1 (p0 : Vec F S320x320 .f32) (y : S320x320.Idx) :
    ∃ pc ∈ ([⟨r0_1, p0⟩] : List (View.Piece (Elt F) S320x320 .f32)), y ∈ pc.1.set :=
  View.cover_of_tiled [⟨r0_1, p0⟩] S320x320.size (by rfl) y

set_option maxHeartbeats 1000000 in
/-- The body on whole staging memrefs, the input's at contents x0 and the output's at anything, runs to the
    continuation with the input's as it was and the output's at out0_1 x0. -/
theorem sound_kernel0 (c : Dev nD) (E : Set ℕ) (i : grid0.Coords) (arg1 : Memref sig .tc .vmem S320x512 .f32) (harg1 : arg1.IsWhole) (arg2 : Memref sig .tc .vmem S320x320 .f32) (harg2 : arg2.IsWhole)
    (x0 : Vec F S320x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__score_kernel i arg1 harg1 arg2 harg2) K := by
  simp only [cc0__score_kernel_eq_skeleton]; unfold cc0__score_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The region's proof data on core c: its arrays as entered; after the point the input's buffer at its block
    and the output's at the product of that block; the rest of the core's scoped state untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at the point, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region's pipeline, at its one point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frame

end
-- ==== Proof.KIRuns1.lean ====
/-
  The second kernel region (forty grid points, eight rows of the three 320 × 320 matrices per point; a [1, 1]
  scratch accumulator carried from point to point; a [1, 1] output stored at the last point only): what the
  three kinds of point do to the core's memory.
    first point:   the scratch is set to zero, then to zero plus the point's partial sum;
    middle points: the scratch goes from what the point before left to that plus the point's partial sum;
    last point:    as a middle point, and then the scratch is copied into the output's buffer.
  The input blocks are only read. Each run is stated on any whole staging memrefs, at every float instance;
  what each buffer ends with is the list of the body's stores into it, last first.
-/
import proofs.«126084_j66812511256800_1_alg».proof.Proof.Gen.KernelIdeal.Launch
import proofs.«126084_j66812511256800_1_alg».proof.Proof.Gen.KernelIdeal.Skeleton
import proofs.«126084_j66812511256800_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

/-- The first branch's condition from the grid coordinate (the body's scalar chain): the point is the first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second branch's condition: the point is the last. -/
abbrev cond1_1 (i : grid1.Coords) : Prop := k1_cond2 i = 1#1
theorem hcond1_1 : ∀ t : Fin cfg1.N, cond1_1 (grid1.coords t) ↔ t.val = 39 :=
  (by decide +kernel : ∀ t : Fin grid1.N, cond1_1 (grid1.coords t) ↔ t.val = 39)

/-- The inputs are never idle; the output is idle, and not written back, exactly away from the last point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- Each window's current staging memref at point t, as the pipeline passes it, and its wholeness. -/
abbrev ms1_0 (t : Fin cfg1.N) : Memref sig .tc .vmem S8x320 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x320 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x320 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The scratch accumulator, a whole scoped buffer of the kernel's own, and views through which contents are stated. -/
abbrev scM1 : Memref sig .tc .vmem S1x1 .f32 := Memref.whole cc1_scratch0
abbrev VS1 : View sig .tc .vmem S1x1 .f32 := scM1.view
abbrev VO1_3 : View sig .tc .vmem S1x1 .f32 := (Memref.whole cc1_stg3_0 : Memref sig .tc .vmem S1x1 .f32).view
/-- The other region's two staging buffers, which this region never touches. -/
abbrev oM1_0 : Memref sig .tc .vmem S320x512 .f32 := Memref.whole cc0_stg0_0
abbrev oM1_1 : Memref sig .tc .vmem S320x320 .f32 := Memref.whole cc0_stg1_0

/-- What the region may use beside its windows: the other region's staging buffers and the scratch at some
    contents, and the generator register at some state. -/
theorem PhiA1_eq (c : Dev nD) :
    (Pipeline.ΦA spec1 c : sProp 𝕄)
      = iprop(iprop((∃ d, owns (c : Thread nD τ) oM1_0 fullShare d) ∗ (∃ d, owns (c : Thread nD τ) oM1_1 fullShare d) ∗ (∃ d, owns (c : Thread nD τ) scM1 fullShare d)) ∗ (∃ r, prngReg c r)) := by
  unfold Pipeline.ΦA; rw [scopedRest1_eq]; simp only [scM1, oM1_0, oM1_1, owns_whole]; try rfl

set_option maxHeartbeats 1000000 in
/-- FIRST POINT (first branch taken, last not): the scratch at anything ends with the stores LS into it. -/
noncomputable def kernelRun1_A (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 x1 x2 : Vec F S8x320 .f32) :
    { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f LS)) -∗ K ⟨⟩))
          ⊢ wp frame (wpE (defs₀ (F := F)) Variants.none c none) E (cc1__reduce_kernel i arg1 harg1 arg2 harg2 arg3 harg3 arg4 harg4 arg5 harg5) K } := by
  refine ⟨?_, fun E K => ?run⟩
  case run =>
    simp only [cc1__reduce_kernel_eq_skeleton]; unfold cc1__reduce_kernel_skel
    simp only [k1_part1_eq_skeleton]
    unfold owns
    iintro ⟨⟨%f0, %hf0, H0⟩, ⟨%f1, %hf1, H1⟩, ⟨%f2, %hf2, H2⟩, ⟨%ds, %fs, -, HS⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 1000000 in
/-- MIDDLE POINTS (neither branch taken): the scratch at xs ends with the stores LS into it. -/
noncomputable def kernelRun1_B (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 x1 x2 : Vec F S8x320 .f32) (xs : Vec F S1x1 .f32) :
    { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f LS)) -∗ K ⟨⟩))
          ⊢ wp frame (wpE (defs₀ (F := F)) Variants.none c none) E (cc1__reduce_kernel i arg1 harg1 arg2 harg2 arg3 harg3 arg4 harg4 arg5 harg5) K } := by
  refine ⟨?_, fun E K => ?run⟩
  case run =>
    simp only [cc1__reduce_kernel_eq_skeleton]; unfold cc1__reduce_kernel_skel
    simp only [k1_part1_eq_skeleton]
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2; obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 1000000 in
/-- LAST POINT (first branch not taken, last taken): the scratch at xs ends with the stores LS, the output's
    buffer at anything with the stores L3. -/
noncomputable def kernelRun1_C (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 x1 x2 : Vec F S8x320 .f32) (xs : Vec F S1x1 .f32) :
    Σ' (L3 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS)) -∗ K ⟨⟩))
          ⊢ wp frame (wpE (defs₀ (F := F)) Variants.none c none) E (cc1__reduce_kernel i arg1 harg1 arg2 harg2 arg3 harg3 arg4 harg4 arg5 harg5) K } := by
  refine ⟨?_, ?_, fun E K => ?run⟩
  case run =>
    simp only [cc1__reduce_kernel_eq_skeleton]; unfold cc1__reduce_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2; obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Region1

end Cert.KernelIdeal.Frame

end
-- ==== Proof.KIRegion1.lean ====
/-
  The second kernel region, at ANY contents V of the core's buffers when the region is entered: what the
  scratch accumulator and the output's staging buffer hold after each of the forty points, by recursion on
  the point (the first point starts the accumulator, every later one continues from what the point before
  left, the last one also fills the output's buffer); the region's invariant (before the first point the
  scratch holds anything; afterwards exactly what the point before left); the proof data; and the body
  obligation at every point, by the three runs. Stated at every float instance.
-/
import proofs.«126084_j66812511256800_1_alg».proof.Proof.KIRuns1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, for any proof data over V whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each kind of point leaves -/

/-- The first point's stores into the scratch cover it, -/
theorem scover1_A (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i) (x0 x1 x2 : Vec F S8x320 .f32) (y : S1x1.Idx) :
    ∃ pc ∈ (kernelRun1_A c i arg1 harg1 arg2 harg2 arg3 harg3 arg4 harg4 arg5 harg5 hc0 hc1 x0 x1 x2).1, y ∈ pc.1.set :=
  View.cover_of_tiledL (kernelRun1_A c i arg1 harg1 arg2 harg2 arg3 harg3 arg4 harg4 arg5 harg5 hc0 hc1 x0 x1 x2).1 S1x1.size (by sl_kernel_rfl) y
/-- and leave in it: -/
def sout1_A (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i) (x0 x1 x2 : Vec F S8x320 .f32) : Vec F S1x1 .f32 :=
  VS1.read (Elt F) (VS1.writes (Elt F) VS1.junk (kernelRun1_A c i arg1 harg1 arg2 harg2 arg3 harg3 arg4 harg4 arg5 harg5 hc0 hc1 x0 x1 x2).1)

/-- A middle point's stores into the scratch cover it, -/
theorem scover1_B (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 x2 : Vec F S8x320 .f32) (xs : Vec F S1x1 .f32) (y : S1x1.Idx) :
    ∃ pc ∈ (kernelRun1_B c i arg1 harg1 arg2 harg2 arg3 harg3 arg4 harg4 arg5 harg5 hc0 hc1 x0 x1 x2 xs).1, y ∈ pc.1.set :=
  View.cover_of_tiledL (kernelRun1_B c i arg1 harg1 arg2 harg2 arg3 harg3 arg4 harg4 arg5 harg5 hc0 hc1 x0 x1 x2 xs).1 S1x1.size (by sl_kernel_rfl) y
/-- and leave in it: -/
def sout1_B (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 x2 : Vec F S8x320 .f32) (xs : Vec F S1x1 .f32) : Vec F S1x1 .f32 :=
  VS1.read (Elt F) (VS1.writes (Elt F) VS1.junk (kernelRun1_B c i arg1 harg1 arg2 harg2 arg3 harg3 arg4 harg4 arg5 harg5 hc0 hc1 x0 x1 x2 xs).1)

/-- The last point's stores into the scratch, and into the output's buffer, cover them, -/
theorem scover1_C (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 x2 : Vec F S8x320 .f32) (xs : Vec F S1x1 .f32) (y : S1x1.Idx) :
    ∃ pc ∈ (kernelRun1_C c i arg1 harg1 arg2 harg2 arg3 harg3 arg4 harg4 arg5 harg5 hc0 hc1 x0 x1 x2 xs).2.1, y ∈ pc.1.set :=
  View.cover_of_tiledL (kernelRun1_C c i arg1 harg1 arg2 harg2 arg3 harg3 arg4 harg4 arg5 harg5 hc0 hc1 x0 x1 x2 xs).2.1 S1x1.size (by sl_kernel_rfl) y
theorem cover1_C (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 x2 : Vec F S8x320 .f32) (xs : Vec F S1x1 .f32) (y : S1x1.Idx) :
    ∃ pc ∈ (kernelRun1_C c i arg1 harg1 arg2 harg2 arg3 harg3 arg4 harg4 arg5 harg5 hc0 hc1 x0 x1 x2 xs).1, y ∈ pc.1.set :=
  View.cover_of_tiledL (kernelRun1_C c i arg1 harg1 arg2 harg2 arg3 harg3 arg4 harg4 arg5 harg5 hc0 hc1 x0 x1 x2 xs).1 S1x1.size (by sl_kernel_rfl) y
/-- and leave in them: -/
def sout1_C (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 x2 : Vec F S8x320 .f32) (xs : Vec F S1x1 .f32) : Vec F S1x1 .f32 :=
  VS1.read (Elt F) (VS1.writes (Elt F) VS1.junk (kernelRun1_C c i arg1 harg1 arg2 harg2 arg3 harg3 arg4 harg4 arg5 harg5 hc0 hc1 x0 x1 x2 xs).2.1)
def out1_C (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 x2 : Vec F S8x320 .f32) (xs : Vec F S1x1 .f32) : Vec F S1x1 .f32 :=
  VO1_3.read (Elt F) (VO1_3.writes (Elt F) VO1_3.junk (kernelRun1_C c i arg1 harg1 arg2 harg2 arg3 harg3 arg4 harg4 arg5 harg5 hc0 hc1 x0 x1 x2 xs).1)

/-- Away from the last point the body stores nothing into the output's buffer, and the pipeline neither writes it
    back nor reads it: a value nothing consults stands for its contents there. -/
def idleOut : Vec F S1x1 .f32 := VO1_3.read (Elt F) VO1_3.junk

theorem c0_zero (hn : 0 < cfg1.N) : cond1_0 (grid1.coords (⟨0, hn⟩ : Fin cfg1.N)) := (hcond1_0 ⟨0, hn⟩).mpr rfl
theorem c1_zero (hn : 0 < cfg1.N) : ¬cond1_1 (grid1.coords (⟨0, hn⟩ : Fin cfg1.N)) := fun h => absurd ((hcond1_1 ⟨0, hn⟩).mp h) (by show ¬ (0 : ℕ) = 39; omega)
theorem c0_succ (n : ℕ) (hn : n + 1 < cfg1.N) : ¬cond1_0 (grid1.coords (⟨n + 1, hn⟩ : Fin cfg1.N)) := fun h => absurd ((hcond1_0 ⟨n + 1, hn⟩).mp h) (Nat.succ_ne_zero n)

/-! ## The accumulation -/

/-- What the output's staging buffer and the scratch hold after the body at position n (output first). -/
def outsAt1 (c : Dev nD) : (n : ℕ) → n < cfg1.N → Vec F S1x1 .f32 × Vec F S1x1 .f32
  | 0, hn => (idleOut, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) (c0_zero hn) (c1_zero hn) (iblk1 V c 0 ⟨0, hn⟩) (iblk1 V c 1 ⟨0, hn⟩) (iblk1 V c 2 ⟨0, hn⟩))
  | n + 1, hn =>
    if h1 : n + 1 = 39 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (c0_succ n hn) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (c0_succ n hn) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else
      (idleOut,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (c0_succ n hn) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- The recursion at the first point, -/
theorem outsAt1_A (c : Dev nD) (t : Fin cfg1.N) (h0 : t.val = 0) (hc0 : cond1_0 (grid1.coords t)) (hc1 : ¬cond1_1 (grid1.coords t)) :
    outsAt1 V c t.val t.isLt = (idleOut, sout1_A c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t)) := by
  obtain ⟨n, hn⟩ := t
  cases n with
  | zero => rfl
  | succ n => exact absurd h0 (Nat.succ_ne_zero n)

/-- at a middle point, -/
theorem outsAt1_B (c : Dev nD) (t : Fin cfg1.N) (h0 : t.val ≠ 0) (h1 : t.val ≠ 39) (hc0 : ¬cond1_0 (grid1.coords t)) (hc1 : ¬cond1_1 (grid1.coords t)) :
    outsAt1 V c t.val t.isLt = (idleOut, sout1_B c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- and at the last. -/
theorem outsAt1_C (c : Dev nD) (t : Fin cfg1.N) (h0 : t.val ≠ 0) (h1 : t.val = 39) (hc0 : ¬cond1_0 (grid1.coords t)) (hc1 : cond1_1 (grid1.coords t)) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant -/

/-- Before position n: at the region's entry what the launch hands over (every scoped buffer that is no staging
    buffer of the region at anything, the generator register at some state); after a point, the same with the
    scratch at what that point left. -/
def PhiS (c : Dev nD) : (n : ℕ) → n ≤ cfg1.N → sProp 𝕄
  | 0, _ => Pipeline.ΦA spec1 c
  | n + 1, hn => iprop(iprop((∃ d, owns (c : Thread nD τ) oM1_0 fullShare d) ∗ (∃ d, owns (c : Thread nD τ) oM1_1 fullShare d) ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ d, owns (c : Thread nD τ) oM1_0 fullShare d) ∗ (∃ d, owns (c : Thread nD τ) oM1_1 fullShare d) ∗ owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(iprop((∃ d, owns (c : Thread nD τ) oM1_0 fullShare d) ∗ (∃ d, owns (c : Thread nD τ) oM1_1 fullShare d) ∗ owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 40 := lt_of_lt_of_eq t.isLt (show cfg1.N = 40 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [outsAt1_A V c t h0 hc0 hc1]
    unfold sout1_A; (try dsimp only)
    rw [PhiS_castSucc V c t, PhiS_zero V c _ _ h0, PhiA1_eq]
    iintro ⟨⟨⟨Hr0, Hr1, HS⟩, Hg⟩, Ho, ⟨%d0, H0⟩, ⟨%d1, H1⟩, ⟨%d2, H2⟩, H3⟩
    iapply ((kernelRun1_A c (grid1.coords t) _ _ _ _ _ _ _ _ _ _ hc0 hc1 (iblk1 V c 0 t) (iblk1 V c 1 t) (iblk1 V c 2 t)).2 Set.univ _)
    isplitl [H0]; · iexact H0
    isplitl [H1]; · iexact H1
    isplitl [H2]; · iexact H2
    isplitl [HS]; · iexact HS
    iintro ⟨H0, H1, H2, ⟨%es, HS⟩⟩
    isplitl [Hr0 Hr1 HS Hg]
    · isplitl [Hr0 Hr1 HS]
      · isplitl [Hr0]; · iexact Hr0
        isplitl [Hr1]; · iexact Hr1
        unfold owns; iexists _; isplitr
        swap; · iexact HS
        ipureintro; exact View.read_writes_of_cover _ _ _ _ _ (scover1_A c _ _ _ _ _ _ _ _ _ _ _ _ _ _ _ _)
      iexact Hg
    isplitl [Ho]; · iexact Ho
    isplitl [H0]; · iexact H0
    isplitl [H1]; · iexact H1
    isplitl [H2]; · iexact H2
    iexact H3
  · have hc0 : ¬cond1_0 (grid1.coords t) := fun h => h0 ((hcond1_0 t).mp h)
    by_cases h1 : t.val = 39
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [outsAt1_C V c t h0 h1 hc0 hc1]
      unfold out1_C sout1_C; (try dsimp only)
      rw [PhiS_castSucc V c t, PhiS_pos V c _ _ h0]
      iintro ⟨⟨⟨Hr0, Hr1, HS⟩, Hg⟩, Ho, ⟨%d0, H0⟩, ⟨%d1, H1⟩, ⟨%d2, H2⟩, ⟨%d3, H3⟩⟩
      iapply ((kernelRun1_C c (grid1.coords t) _ _ _ _ _ _ _ _ _ _ hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Hr0 Hr1 HS Hg]
      · isplitl [Hr0 Hr1 HS]
        · isplitl [Hr0]; · iexact Hr0
          isplitl [Hr1]; · iexact Hr1
          unfold owns; iexists _; isplitr
          swap; · iexact HS
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · have hc1 : ¬cond1_1 (grid1.coords t) := fun h => h1 ((hcond1_1 t).mp h)
      rw [Dat.leavesExact_idle (dat1 V c) 3 t (idleAt1_3 t hc1) (noFlush1_3 t hc1)]
      rw [outsAt1_B V c t h0 h1 hc0 hc1]
      unfold sout1_B; (try dsimp only)
      rw [PhiS_castSucc V c t, PhiS_pos V c _ _ h0]
      iintro ⟨⟨⟨Hr0, Hr1, HS⟩, Hg⟩, Ho, ⟨%d0, H0⟩, ⟨%d1, H1⟩, ⟨%d2, H2⟩, H3⟩
      iapply ((kernelRun1_B c (grid1.coords t) _ _ _ _ _ _ _ _ _ _ hc0 hc1 (iblk1 V c 0 t) (iblk1 V c 1 t) (iblk1 V c 2 t) _).2 Set.univ _)
      isplitl [H0]; · iexact H0
      isplitl [H1]; · iexact H1
      isplitl [H2]; · iexact H2
      isplitl [HS]; · iexact HS
      iintro ⟨H0, H1, H2, ⟨%es, HS⟩⟩
      isplitl [Hr0 Hr1 HS Hg]
      · isplitl [Hr0 Hr1 HS]
        · isplitl [Hr0]; · iexact Hr0
          isplitl [Hr1]; · iexact Hr1
          unfold owns; iexists _; isplitr
          swap; · iexact HS
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- and after the last point the invariant gives it back, the scratch's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 40 := N_1; omega), PhiA1_eq]
  iintro ⟨⟨Hr0, Hr1, HS⟩, Hg⟩
  isplitl [Hr0 Hr1 HS]
  · isplitl [Hr0]; · iexact Hr0
    isplitl [Hr1]; · iexact Hr1
    iexists _; iexact HS
  iexact Hg

end Region1

end Cert.KernelIdeal.Frame

end
-- ==== Proof.KIMain.lean ====
/-
  The whole program's run: a reshape, the first region, five layout operations, the second region, five scalar
  operations. The contents of the core's unscoped buffers at each boundary are a fold from the launch memory —
  a stretch of host operations applies them; a region leaves its arrays at what its write-backs make of them and
  every other buffer alone. Every weakly fair execution terminates, and at the end EVERY unscoped buffer holds
  what that fold says; no step writes an argument array, so the three arguments end as launched. Stated at
  every float instance.
-/
import proofs.«126084_j66812511256800_1_alg».proof.Proof.KIRegion0
import proofs.«126084_j66812511256800_1_alg».proof.Proof.KIRegion1
import proofs.«126084_j66812511256800_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the reshape (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the five layout operations (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the five scalar operations: the end. -/
abbrev W5 : Dev nD → Valuation τ sig (Elt F) := fun c => StableHlo.after hostOps2 (W4 m c)

/-! ## No step writes an argument -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-! ## The proof data family and the thread state -/

/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (V3 m) c).Φ (Fin.last cfg1.N) from rfl]
    refine (hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and every
    unscoped buffer ends at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (StableHlo.after hostOps2 (W4 m c)) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

end Cert.KernelIdeal.Frame

end
-- ==== Proof.KIBlocks.lean ====
/-
  The second region's input blocks as restrictions of their arrays: the block of eight rows a window hands the
  body at grid point t is rows 8·t … 8·t + 7 of the window's 320 × 320 array, all 320 columns.
-/
import proofs.«126084_j66812511256800_1_alg».proof.Proof.KIRegion1
import Idealize.ShloMosaic.Lib.ValueIdx
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Blocks

variable (V : (c : Dev nD) → (b : Ref sig .tc) → Buf (Elt F) ((c : Thread nD τ).loc b))

/-- Entry (bb, cc) of window 0's block at point t is entry (8·t + bb, cc) of its array. -/
theorem iblk1_0_apply (c : Dev nD) (t : Fin cfg1.N) (bb : Fin 8) (cc : Fin 320) :
    (iblk1 V c 0 t : S8x320.Idx → Elt F .f32) (ix2 bb cc)
      = (V c main_v5 : S320x320.Idx → Elt F .f32) (ix2 (⟨8 * t.val + bb.val, by have := t.isLt; have : cfg1.N = 40 := N_1; omega⟩ : Fin 320) cc) := by
  have hi : win1_0.index t 0 = t.val ∧ win1_0.index t 1 = 0 :=
    (by decide +kernel : ∀ t : Fin grid1.N, win1_0.index t 0 = t.val ∧ win1_0.index t 1 = 0) t
  unfold iblk1
  rw [View.read_apply]
  show V c main_v5 _ = V c main_v5 _
  congr 1
  funext a
  apply Fin.ext
  match a with
  | ⟨0, _⟩ => show win1_0.index t 0 * 8 + 1 * bb.val = 8 * t.val + bb.val; rw [hi.1]; omega
  | ⟨1, _⟩ => show win1_0.index t 1 * 320 + 1 * cc.val = cc.val; rw [hi.2]; omega

/-- Entry (bb, cc) of window 1's block at point t is entry (8·t + bb, cc) of its array. -/
theorem iblk1_1_apply (c : Dev nD) (t : Fin cfg1.N) (bb : Fin 8) (cc : Fin 320) :
    (iblk1 V c 1 t : S8x320.Idx → Elt F .f32) (ix2 bb cc)
      = (V c main_v6 : S320x320.Idx → Elt F .f32) (ix2 (⟨8 * t.val + bb.val, by have := t.isLt; have : cfg1.N = 40 := N_1; omega⟩ : Fin 320) cc) := by
  have hi : win1_1.index t 0 = t.val ∧ win1_1.index t 1 = 0 :=
    (by decide +kernel : ∀ t : Fin grid1.N, win1_1.index t 0 = t.val ∧ win1_1.index t 1 = 0) t
  unfold iblk1
  rw [View.read_apply]
  show V c main_v6 _ = V c main_v6 _
  congr 1
  funext a
  apply Fin.ext
  match a with
  | ⟨0, _⟩ => show win1_1.index t 0 * 8 + 1 * bb.val = 8 * t.val + bb.val; rw [hi.1]; omega
  | ⟨1, _⟩ => show win1_1.index t 1 * 320 + 1 * cc.val = cc.val; rw [hi.2]; omega

/-- Entry (bb, cc) of window 2's block at point t is entry (8·t + bb, cc) of its array. -/
theorem iblk1_2_apply (c : Dev nD) (t : Fin cfg1.N) (bb : Fin 8) (cc : Fin 320) :
    (iblk1 V c 2 t : S8x320.Idx → Elt F .f32) (ix2 bb cc)
      = (V c main_v1 : S320x320.Idx → Elt F .f32) (ix2 (⟨8 * t.val + bb.val, by have := t.isLt; have : cfg1.N = 40 := N_1; omega⟩ : Fin 320) cc) := by
  have hi : win1_2.index t 0 = t.val ∧ win1_2.index t 1 = 0 :=
    (by decide +kernel : ∀ t : Fin grid1.N, win1_2.index t 0 = t.val ∧ win1_2.index t 1 = 0) t
  unfold iblk1
  rw [View.read_apply]
  show V c main_v1 _ = V c main_v1 _
  congr 1
  funext a
  apply Fin.ext
  match a with
  | ⟨0, _⟩ => show win1_2.index t 0 * 8 + 1 * bb.val = 8 * t.val + bb.val; rw [hi.1]; omega
  | ⟨1, _⟩ => show win1_2.index t 1 * 320 + 1 * cc.val = cc.val; rw [hi.2]; omega

end Blocks

end Cert.KernelIdeal.Frame

end
-- ==== Proof.KIPieces.lean ====
/-
  The two kernel regions read as values: what each kind of point of the second region leaves in the scratch
  accumulator (and, at the last point, in the output's buffer) is the body's payload of the three input blocks
  and of what the scratch held; and what each region's output array holds when the region ends.
-/
import proofs.«126084_j66812511256800_1_alg».proof.Proof.KIRegion0
import proofs.«126084_j66812511256800_1_alg».proof.Proof.KIRegion1
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block rectangle. -/
theorem hz00 : (![0, 0] : Fin 2 → Nat) = fun _ => 0 := funext fun a => by fin_cases a <;> rfl

/-- The first point sets the scratch to zero, reads it back, and leaves the payload of the three blocks and of that zero. -/
theorem sout1_A_eq (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i) (x0 x1 x2 : Vec F S8x320 .f32) :
    sout1_A c i arg1 harg1 arg2 harg2 arg3 harg3 arg4 harg4 arg5 harg5 hc0 hc1 x0 x1 x2
      = k1_pay1 k1_pay3 (k1_pay4 x0 x1) (k1_pay5 x2) (Scalar.ofBits .f32 0x00000000#32) (k1_pay2 (F := F)) := by
  unfold sout1_A
  rw [View.read_writes_eq_canon _ _ _ (scover1_A c i arg1 harg1 arg2 harg2 arg3 harg3 arg4 harg4 arg5 harg5 hc0 hc1 x0 x1 x2)]
  unfold kernelRun1_A
  dsimp only
  sl_unfold_words
  rw [View.canon_cons_unit_zero (S := S1x1) hz00, View.readCov_unit_zero (S := S1x1) _ hz00]
  simp only [View.readAt_eq_ld, harg1.read_unread, harg2.read_unread, harg3.read_unread, View.ld_unit_zero (S := S8x320) hz00]

/-- A middle point leaves in the scratch the payload of the three blocks and of what the scratch held. -/
theorem sout1_B_eq (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 x2 : Vec F S8x320 .f32) (xs : Vec F S1x1 .f32) :
    sout1_B c i arg1 harg1 arg2 harg2 arg3 harg3 arg4 harg4 arg5 harg5 hc0 hc1 x0 x1 x2 xs
      = k1_pay1 k1_pay3 (k1_pay4 x0 x1) (k1_pay5 x2) (Scalar.ofBits .f32 0x00000000#32) xs := by
  unfold sout1_B
  rw [View.read_writes_eq_canon _ _ _ (scover1_B c i arg1 harg1 arg2 harg2 arg3 harg3 arg4 harg4 arg5 harg5 hc0 hc1 x0 x1 x2 xs)]
  unfold kernelRun1_B
  dsimp only
  sl_unfold_words
  rw [View.canon_unit_zero hz00]
  simp only [View.readAt_eq_ld, harg1.read_unread, harg2.read_unread, harg3.read_unread, harg5.read_unread, View.ld_unit_zero (S := S8x320) hz00, View.ld_unit_zero (S := S1x1) hz00]

/-- The last point leaves in the scratch what a middle point does, -/
theorem sout1_C_eq (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 x2 : Vec F S8x320 .f32) (xs : Vec F S1x1 .f32) :
    sout1_C c i arg1 harg1 arg2 harg2 arg3 harg3 arg4 harg4 arg5 harg5 hc0 hc1 x0 x1 x2 xs
      = k1_pay1 k1_pay3 (k1_pay4 x0 x1) (k1_pay5 x2) (Scalar.ofBits .f32 0x00000000#32) xs := by
  unfold sout1_C
  rw [View.read_writes_eq_canon _ _ _ (scover1_C c i arg1 harg1 arg2 harg2 arg3 harg3 arg4 harg4 arg5 harg5 hc0 hc1 x0 x1 x2 xs)]
  unfold kernelRun1_C
  dsimp only
  sl_unfold_words
  rw [View.canon_unit_zero hz00]
  simp only [View.readAt_eq_ld, harg1.read_unread, harg2.read_unread, harg3.read_unread, harg5.read_unread, View.ld_unit_zero (S := S8x320) hz00, View.ld_unit_zero (S := S1x1) hz00]

/-- and copies the scratch, just stored, into the output's buffer. -/
theorem out1_C_eq (c : Dev nD) (i : grid1.Coords) (arg1 : Memref sig .tc .vmem S8x320 .f32) (harg1 : arg1.IsWhole) (arg2 : Memref sig .tc .vmem S8x320 .f32) (harg2 : arg2.IsWhole) (arg3 : Memref sig .tc .vmem S8x320 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 x2 : Vec F S8x320 .f32) (xs : Vec F S1x1 .f32) :
    out1_C c i arg1 harg1 arg2 harg2 arg3 harg3 arg4 harg4 arg5 harg5 hc0 hc1 x0 x1 x2 xs
      = k1_pay1 k1_pay3 (k1_pay4 x0 x1) (k1_pay5 x2) (Scalar.ofBits .f32 0x00000000#32) xs := by
  unfold out1_C
  rw [View.read_writes_eq_canon _ _ _ (cover1_C c i arg1 harg1 arg2 harg2 arg3 harg3 arg4 harg4 arg5 harg5 hc0 hc1 x0 x1 x2 xs)]
  unfold kernelRun1_C
  dsimp only
  sl_unfold_words
  rw [View.canon_unit_zero hz00, View.readCov_unit_zero (S := S1x1) _ hz00]
  simp only [View.readAt_eq_ld, harg1.read_unread, harg2.read_unread, harg3.read_unread, harg5.read_unread, View.ld_unit_zero (S := S8x320) hz00, View.ld_unit_zero (S := S1x1) hz00]

section Final

variable (V : (c : Dev nD) → (b : Ref sig .tc) → Buf (Elt F) ((c : Thread nD τ).loc b))

/-- The first region's one store leaves the product of the rows of the loaded block. -/
theorem out0_1_eq (x0 : Vec F S320x512 .f32) : out0_1 x0 = k0_pay1 x0 := by
  unfold out0_1
  rw [View.canon_unit_zero hz00, View.ld_unit_zero (S := S320x512) hz00]

/-- The first region's input block, at its one point, is the whole array. -/
theorem iblk0_whole (c : Dev nD) : iblk0 V c 0 t0_0 = V c main_v0 := by
  unfold iblk0
  have hz' : (fun a => win0_0.index t0_0 a * main_v0.ty.shape.size a) = fun _ => 0 := funext fun a => by fin_cases a <;> decide
  exact Memref.read_access_unit_zero (Elt F) main_v0 hz' (fun a => by rw [congrFun hz' a]; simp) (V c main_v0)

/-- The one write-back of the first region writes the product of the rows of the input array. -/
theorem flushed0_eq (c : Dev nD) (t : Fin cfg0.N) (hf : (cfg0.win 1).flush t = true) :
    (dat0 V c).flushed 1 t = ((cfg0.win 1).blk t).view.read (Elt F) (k0_pay1 (V c main_v0) : Buf (Elt F) ((c : Thread nD τ).loc main_v1)) := by
  obtain rfl : t = t0_0 := fin_N0 t
  show (cfg0.win 1).cut (grid0.coords t0_0) ((dat0 V c).after 1 t0_0) = _
  rw [after0_1, out0_1_eq, iblk0_whole]
  have hz' : (fun a => win0_1.index t0_0 a * main_v1.ty.shape.size a) = fun _ => 0 := funext fun a => by fin_cases a <;> decide
  exact (Memref.read_access_unit_zero (Elt F) main_v1 hz' (fun a => by rw [congrFun hz' a]; simp) (k0_pay1 (V c main_v0))).symm

/-- So the Gram matrix's array ends holding the product of the rows of the input array. -/
theorem arr0_final (c : Dev nD) : (dat0 V c).arrAt 1 cfg0.N = k0_pay1 (V c main_v0) :=
  (dat0 V c).arrAt_eq_of_cover 1 (k0_pay1 (V c main_v0)) (flushed0_eq V c) fun i =>
    ⟨t0_0, flush0_1 t0_0, by
      show i ∈ ((View.whole main_v1).slice (win0_1.rect t0_0)).set
      rw [View.set_slice_whole, Rect.mem_set_unit]
      intro a
      have h0 : (i 0 : Nat) < 320 := (i 0).isLt
      have h1 : (i 1 : Nat) < 320 := (i 1).isLt
      match a with
      | ⟨0, _⟩ => show win0_1.index t0_0 0 * win0_1.size 0 ≤ (i 0 : Nat) ∧ (i 0 : Nat) < win0_1.index t0_0 0 * win0_1.size 0 + win0_1.xsize (grid0.coords t0_0) 0
                  rw [show win0_1.index t0_0 0 * win0_1.size 0 = 0 from by decide +kernel, show win0_1.xsize (grid0.coords t0_0) 0 = 320 from by decide +kernel]; omega
      | ⟨1, _⟩ => show win0_1.index t0_0 1 * win0_1.size 1 ≤ (i 1 : Nat) ∧ (i 1 : Nat) < win0_1.index t0_0 1 * win0_1.size 1 + win0_1.xsize (grid0.coords t0_0) 1
                  rw [show win0_1.index t0_0 1 * win0_1.size 1 = 0 from by decide +kernel, show win0_1.xsize (grid0.coords t0_0) 1 = 320 from by decide +kernel]; omega⟩

end Final

section Final1

variable (V : (c : Dev nD) → (b : Ref sig .tc) → Buf (Elt F) ((c : Thread nD τ).loc b))

/-- The last point of the second region. -/
theorem lt1_39 : 39 < cfg1.N := by rw [show cfg1.N = 40 from N_1]; decide

/-- The one write-back of the second region, at its last point, writes what that point left in the output's buffer. -/
theorem flushed1_eq (c : Dev nD) (t : Fin cfg1.N) (hf : (cfg1.win 3).flush t = true) :
    (dat1 V c).flushed 3 t = ((cfg1.win 3).blk t).view.read (Elt F) ((outsAt1 V c 39 lt1_39).1 : Buf (Elt F) ((c : Thread nD τ).loc main_v7)) := by
  have hN : cfg1.N = 40 := N_1
  have h39 : t.val = 39 := by have := (flush1_3 t).mp hf; have := t.isLt; omega
  obtain rfl : t = ⟨39, lt1_39⟩ := Fin.ext h39
  show (cfg1.win 3).cut (grid1.coords ⟨39, lt1_39⟩) ((dat1 V c).after 3 ⟨39, lt1_39⟩) = _
  rw [after1_3]
  have hz' : (fun a => win1_3.index ⟨39, lt1_39⟩ a * main_v7.ty.shape.size a) = fun _ => 0 := funext fun a => by fin_cases a <;> decide +kernel
  exact (Memref.read_access_unit_zero (Elt F) main_v7 hz' (fun a => by rw [congrFun hz' a]; simp) ((outsAt1 V c 39 lt1_39).1)).symm

/-- So the output's array ends holding what the last point left in the output's buffer. -/
theorem arr1_final (c : Dev nD) :
    (dat1 V c).arrAt 3 cfg1.N = (outsAt1 V c 39 (by rw [show cfg1.N = 40 from N_1]; decide)).1 :=
  (dat1 V c).arrAt_eq_of_cover 3 ((outsAt1 V c 39 lt1_39).1) (flushed1_eq V c) fun i =>
    ⟨⟨39, lt1_39⟩, (flush1_3 ⟨39, lt1_39⟩).mpr rfl, by
      show i ∈ ((View.whole main_v7).slice (win1_3.rect ⟨39, lt1_39⟩)).set
      rw [View.set_slice_whole, Rect.mem_set_unit]
      intro a
      have h0 : (i 0 : Nat) < 1 := (i 0).isLt
      have h1 : (i 1 : Nat) < 1 := (i 1).isLt
      match a with
      | ⟨0, _⟩ => show win1_3.index ⟨39, lt1_39⟩ 0 * win1_3.size 0 ≤ (i 0 : Nat) ∧ (i 0 : Nat) < win1_3.index ⟨39, lt1_39⟩ 0 * win1_3.size 0 + win1_3.xsize (grid1.coords ⟨39, lt1_39⟩) 0
                  rw [show win1_3.index ⟨39, lt1_39⟩ 0 * win1_3.size 0 = 0 from by decide +kernel, show win1_3.xsize (grid1.coords ⟨39, lt1_39⟩) 0 = 1 from by decide +kernel]; omega
      | ⟨1, _⟩ => show win1_3.index ⟨39, lt1_39⟩ 1 * win1_3.size 1 ≤ (i 1 : Nat) ∧ (i 1 : Nat) < win1_3.index ⟨39, lt1_39⟩ 1 * win1_3.size 1 + win1_3.xsize (grid1.coords ⟨39, lt1_39⟩) 1
                  rw [show win1_3.index ⟨39, lt1_39⟩ 1 * win1_3.size 1 = 0 from by decide +kernel, show win1_3.xsize (grid1.coords ⟨39, lt1_39⟩) 1 = 1 from by decide +kernel]; omega⟩

end Final1

end Cert.KernelIdeal.Frame

end
-- ==== Proof.Spec.lean ====
/-
  The loss both programs compute, as ONE function of the argument arrays over the extended reals.

  Rows: the embeddings x[n, p, ·] (n < 64, p < 5) are taken as 320 rows, row r = 5·n + p.
  score r s  = Σ_k row r k · row s k                      (the Gram matrix of the rows; symmetric)
  cbig r s   = cm[r / 5, s / 5]                            (each entry of the 64 × 64 map repeated 5 × 5 times)
  tsig z     = 1 / (1 + exp (clamp (−z / T) to [−50, 50])) (the temperature sigmoid; always a real in (0, 1])
  rank d b c = Σ_{a ≠ c} tsig (d a b − d b c) + 1          (for d = cbig and for d = score)
  ratio b c  = min (rank cbig b c) (rank score b c) / max (rank cbig b c) (rank score b c)
  loss       = 1 − (Σ_b Σ_c ratio b c) / 320²

  The float literals stay the f32 words the two programs carry: the same word stands on both sides
  and is never evaluated, except where a law needs its value (0, 1).
-/
import Idealize.ShloMosaic.PureOps.Ideal
import Idealize.ShloMosaic.Lib.ValueIdx

noncomputable section

namespace Cert.RankLoss

open Idealize.ShloMosaic Idealize.ShloMosaic.ValueIdx

/-- The temperature T: the f32 nearest 0.01. -/
def temp : EReal := Ideal.ofBits .f32 0x3C23D70A#32
/-- The clamp's lower end, −50. -/
def lo : EReal := Ideal.ofBits .f32 0xC2480000#32
/-- The clamp's upper end, 50. -/
def hi : EReal := Ideal.ofBits .f32 0x42480000#32
/-- The f32 word of 1. -/
def one : EReal := Ideal.ofBits .f32 0x3F800000#32
/-- The f32 word of 0. -/
def zero : EReal := Ideal.ofBits .f32 0x00000000#32
/-- 320² = 102400, exact in f32. -/
def count : EReal := Ideal.ofBits .f32 0x47C80000#32

/-- The temperature sigmoid with its exponent clamped to [−50, 50]. -/
def tsig (z : EReal) : EReal :=
  Ideal.div one (one + Ideal.exp (min hi (max lo (Ideal.div (-z) temp))))

/-- Row r = 5·n + p of the embeddings is x[n, p, ·]. -/
def row (x : (⟨3, ![64, 5, 512]⟩ : Shape).Idx → EReal) (r : Fin 320) (k : Fin 512) : EReal :=
  x (ix3 (⟨r.val / 5, by omega⟩ : Fin 64) (⟨r.val % 5, by omega⟩ : Fin 5) k)

/-- The Gram matrix of the rows. -/
def score (x : (⟨3, ![64, 5, 512]⟩ : Shape).Idx → EReal) (r s : Fin 320) : EReal :=
  ∑ k : Fin 512, row x r k * row x s k

/-- The 64 × 64 map with each entry repeated over a 5 × 5 tile. -/
def cbig (cm : (⟨2, ![64, 64]⟩ : Shape).Idx → EReal) (r s : Fin 320) : EReal :=
  cm (ix2 (⟨r.val / 5, by omega⟩ : Fin 64) (⟨s.val / 5, by omega⟩ : Fin 64))

/-- One plus the sigmoids of u a − v over a ≠ c: the smooth rank of the value v among the values u, position c left out. -/
def rankRow (u : Fin 320 → EReal) (v : EReal) (c : Fin 320) : EReal :=
  (∑ a : Fin 320, if a = c then zero else tsig (u a - v)) + one

/-- The smooth rank of entry (b, c) of a 320 × 320 matrix d: one plus the sigmoids of d a b − d b c over a ≠ c. -/
def rank (d : Fin 320 → Fin 320 → EReal) (b c : Fin 320) : EReal :=
  rankRow (fun a => d a b) (d b c) c

/-- The smaller of two ranks over the larger. -/
def ratioOf (p q : EReal) : EReal := Ideal.div (min p q) (max p q)

/-- The smaller rank over the larger, at entry (b, c). -/
def ratio (x : (⟨3, ![64, 5, 512]⟩ : Shape).Idx → EReal) (cm : (⟨2, ![64, 64]⟩ : Shape).Idx → EReal) (b c : Fin 320) : EReal :=
  ratioOf (rank (cbig cm) b c) (rank (score x) b c)

/-- The ratios of eight consecutive rows b summed, from three 8 × 320 row blocks: r0 the rows d b · of the
    repeated map, r1 the rows of its transpose (r1 b a = d a b), r2 the rows of the Gram matrix (which is
    symmetric, so r2 b a also stands for the entry (a, b)). -/
def blockSum (r0 r1 r2 : Fin 8 → Fin 320 → EReal) : EReal :=
  ∑ bb : Fin 8, ∑ c : Fin 320, ratioOf (rankRow (r1 bb) (r0 bb c) c) (rankRow (r2 bb) (r2 bb c) c)

/-- The sum of all 320² ratios. -/
def total (x : (⟨3, ![64, 5, 512]⟩ : Shape).Idx → EReal) (cm : (⟨2, ![64, 64]⟩ : Shape).Idx → EReal) : EReal :=
  ∑ b : Fin 320, ∑ c : Fin 320, ratio x cm b c

/-- The loss: one minus the mean ratio, as the rank-0 array both programs return. -/
def loss (x : (⟨3, ![64, 5, 512]⟩ : Shape).Idx → EReal) (cm : (⟨2, ![64, 64]⟩ : Shape).Idx → EReal) :
    (⟨0, ![]⟩ : Shape).Idx → EReal :=
  fun _ => one - Ideal.div (total x cm) count

end Cert.RankLoss

end
-- ==== Proof.HostGlue.lean ====
/-
  The host operations of the kernel's program read at an index: the reshape of the embeddings gives the 320
  rows of Spec; the two broadcasts and two reshapes of the 64 × 64 map give the map repeated over 5 × 5 tiles,
  and the transpose gives its transpose; the closing operations give one minus the quotient by 320².
-/
import proofs.«126084_j66812511256800_1_alg».proof.Proof.Gen.KernelIdeal.Launch
import proofs.«126084_j66812511256800_1_alg».proof.Proof.Spec
import Idealize.ShloMosaic.Lib.StableHlo.Run
import Idealize.ShloMosaic.Lib.Pipeline.Value
import Idealize.ShloMosaic.Lib.ValueIdx

noncomputable section

namespace Cert.RankLoss.Glue

open Cert.KernelIdeal Cert.KernelIdeal.Gen Idealize.ShloMosaic Idealize.ShloMosaic.TcCoe Idealize.SL.Sem
open Idealize.ShloMosaic.StableHlo Idealize.ShloMosaic.ValueIdx

/-- The reshape 64 × 5 × 512 → 320 × 512 read at (r, k): row r = 5·n + p is x[n, p, ·]. -/
theorem reshape_rows (x0 : S64x5x512.Idx → EReal) (r : Fin 320) (k : Fin 512) :
    shapeCast S320x512 x0 shapeCasts_S64x5x512_S320x512 (ix2 r k) = Cert.RankLoss.row x0 r k := by
  unfold Cert.RankLoss.row
  refine shapeCast_apply x0 shapeCasts_S64x5x512_S320x512 (ix2 r k) _ ?_
  rewrite [Shape.rowMajor_val_three, Shape.rowMajor_val_two]
  show (r.val / 5 * 5 + r.val % 5) * 512 + k.val = r.val * 512 + k.val
  omega

theorem rows_entry (V : Valuation Cert.KernelIdeal.τ Cert.KernelIdeal.sig (Elt Ideal)) (r : Fin 320) (k : Fin 512) :
    (StableHlo.after (hostOps0 (F := Ideal)) V (Proc.devRef .tc main_v0) : S320x512.Idx → EReal) (ix2 r k)
      = Cert.RankLoss.row (V (Proc.devRef .tc main_arg0)) r k := by
  have e : (StableHlo.after (hostOps0 (F := Ideal)) V (Proc.devRef .tc main_v0) : S320x512.Idx → EReal)
      = shapeCast S320x512 (V (Proc.devRef .tc main_arg0) : S64x5x512.Idx → EReal) shapeCasts_S64x5x512_S320x512 := by
    after_results; rfl
  rw [e]
  exact reshape_rows _ r k

/-- The first broadcast, 64 × 64 → 64 × 64 × 5 along a new last axis, read at (a, b, p). -/
theorem bcast_tile (x2 : S64x64.Idx → EReal) (a b : Fin 64) (p : Fin 5) :
    broadcastInDim S64x64x5 ![0, 1] bcast_S64x64_S64x64x5_0_1 x2 (ix3 a b p) = x2 (ix2 a b) :=
  broadcastInDim_apply _ bcast_S64x64_S64x64x5_0_1 x2 (ix3 a b p) (ix2 a b) (fun d => match d with
    | ⟨0, _⟩ => by show a.val = if (64 : Nat) = 1 then 0 else a.val; rw [if_neg (by decide)]
    | ⟨1, _⟩ => by show b.val = if (64 : Nat) = 1 then 0 else b.val; rw [if_neg (by decide)])

/-- The reshape 64 × 64 × 5 → 64 × 320 read at (a, s): column s = 5·b + p. -/
theorem reshape_cols (y : S64x64x5.Idx → EReal) (a : Fin 64) (s : Fin 320) :
    shapeCast S64x320 y shapeCasts_S64x64x5_S64x320 (ix2 a s)
      = y (ix3 a (⟨s.val / 5, by omega⟩ : Fin 64) (⟨s.val % 5, by omega⟩ : Fin 5)) := by
  refine shapeCast_apply y shapeCasts_S64x64x5_S64x320 (ix2 a s) _ ?_
  rewrite [Shape.rowMajor_val_three, Shape.rowMajor_val_two]
  show (a.val * 64 + s.val / 5) * 5 + s.val % 5 = a.val * 320 + s.val
  omega

/-- The second broadcast, 64 × 320 → 64 × 5 × 320 along a new middle axis, read at (a, p, s). -/
theorem bcast_rows (y : S64x320.Idx → EReal) (a : Fin 64) (p : Fin 5) (s : Fin 320) :
    broadcastInDim S64x5x320 ![0, 2] bcast_S64x320_S64x5x320_0_2 y (ix3 a p s) = y (ix2 a s) :=
  broadcastInDim_apply _ bcast_S64x320_S64x5x320_0_2 y (ix3 a p s) (ix2 a s) (fun d => match d with
    | ⟨0, _⟩ => by show a.val = if (64 : Nat) = 1 then 0 else a.val; rw [if_neg (by decide)]
    | ⟨1, _⟩ => by show s.val = if (320 : Nat) = 1 then 0 else s.val; rw [if_neg (by decide)])

/-- The reshape 64 × 5 × 320 → 320 × 320 read at (r, s): row r = 5·a + p. -/
theorem reshape_tiles (y : S64x5x320.Idx → EReal) (r s : Fin 320) :
    shapeCast S320x320 y shapeCasts_S64x5x320_S320x320 (ix2 r s)
      = y (ix3 (⟨r.val / 5, by omega⟩ : Fin 64) (⟨r.val % 5, by omega⟩ : Fin 5) s) := by
  refine shapeCast_apply y shapeCasts_S64x5x320_S320x320 (ix2 r s) _ ?_
  rewrite [Shape.rowMajor_val_three, Shape.rowMajor_val_two]
  show (r.val / 5 * 5 + r.val % 5) * 320 + s.val = r.val * 320 + s.val
  omega

/-- The four layout operations composed: entry (r, s) of the result is entry (r / 5, s / 5) of the map. -/
theorem cbig_chain (x2 : S64x64.Idx → EReal) (r s : Fin 320) :
    shapeCast S320x320
        (broadcastInDim S64x5x320 ![0, 2] bcast_S64x320_S64x5x320_0_2
          (shapeCast S64x320 (broadcastInDim S64x64x5 ![0, 1] bcast_S64x64_S64x64x5_0_1 x2) shapeCasts_S64x64x5_S64x320))
        shapeCasts_S64x5x320_S320x320 (ix2 r s)
      = Cert.RankLoss.cbig x2 r s := by
  rw [reshape_tiles, bcast_rows, reshape_cols, bcast_tile]
  rfl

/-- The transpose of a 320 × 320 array read at (r, s) is the array at (s, r). -/
theorem transpose_entry (y : S320x320.Idx → EReal) (r s : Fin 320) :
    transpose S320x320 [1, 0] y transposes_S320x320_S320x320_1_0 (ix2 r s) = y (ix2 s r) :=
  transpose_apply [1, 0] y transposes_S320x320_S320x320_1_0 (ix2 r s) (ix2 s r) (fun b => match b with
    | ⟨0, _⟩ => rfl
    | ⟨1, _⟩ => rfl)

/-- What the second stretch leaves in the repeated map's array. -/
theorem hostOps1_v5 (V : Valuation Cert.KernelIdeal.τ Cert.KernelIdeal.sig (Elt Ideal)) :
    (StableHlo.after (hostOps1 (F := Ideal)) V (Proc.devRef .tc main_v5) : S320x320.Idx → EReal)
      = shapeCast S320x320
        (broadcastInDim S64x5x320 ![0, 2] bcast_S64x320_S64x5x320_0_2
          (shapeCast S64x320 (broadcastInDim S64x64x5 ![0, 1] bcast_S64x64_S64x64x5_0_1
            (V (Proc.devRef .tc main_arg2) : S64x64.Idx → EReal)) shapeCasts_S64x64x5_S64x320))
        shapeCasts_S64x5x320_S320x320 := by
  after_results; rfl

theorem cbig_entry (V : Valuation Cert.KernelIdeal.τ Cert.KernelIdeal.sig (Elt Ideal)) (r s : Fin 320) :
    (StableHlo.after (hostOps1 (F := Ideal)) V (Proc.devRef .tc main_v5) : S320x320.Idx → EReal) (ix2 r s)
      = Cert.RankLoss.cbig (V (Proc.devRef .tc main_arg2)) r s := by
  rw [hostOps1_v5]
  exact cbig_chain _ r s

/-- What the second stretch leaves in the transposed array: the transpose of the repeated map's array. -/
theorem hostOps1_v6 (V : Valuation Cert.KernelIdeal.τ Cert.KernelIdeal.sig (Elt Ideal)) :
    (StableHlo.after (hostOps1 (F := Ideal)) V (Proc.devRef .tc main_v6) : S320x320.Idx → EReal)
      = transpose S320x320 [1, 0]
          (StableHlo.after (hostOps1 (F := Ideal)) V (Proc.devRef .tc main_v5) : S320x320.Idx → EReal)
          transposes_S320x320_S320x320_1_0 := by
  rw [hostOps1_v5]
  after_results; rfl

theorem cbigT_entry (V : Valuation Cert.KernelIdeal.τ Cert.KernelIdeal.sig (Elt Ideal)) (r s : Fin 320) :
    (StableHlo.after (hostOps1 (F := Ideal)) V (Proc.devRef .tc main_v6) : S320x320.Idx → EReal) (ix2 r s)
      = Cert.RankLoss.cbig (V (Proc.devRef .tc main_arg2)) s r := by
  rw [hostOps1_v6, transpose_entry]
  exact cbig_entry V s r

/-- No operation of the second stretch writes the Gram matrix's array. -/
theorem hostOps1_keeps_v1 (V : Valuation Cert.KernelIdeal.τ Cert.KernelIdeal.sig (Elt Ideal)) :
    StableHlo.after (hostOps1 (F := Ideal)) V (Proc.devRef .tc main_v1) = V (Proc.devRef .tc main_v1) := by
  after_results

/-- The closing operations as a function of the 1 × 1 sum: one minus the sum over 320². -/
theorem tail_value (y : S1x1.Idx → EReal) :
    (subf (constant (F := Ideal) S_ .f32 0x3F800000#32)
        (Host.divf (F := Ideal) (shapeCast S_ y shapeCasts_S1x1_S_) (constant (F := Ideal) S_ .f32 0x47C80000#32))
      : S_.Idx → EReal)
      = fun _ => Cert.RankLoss.one - Ideal.div (y (ix2 0 0)) Cert.RankLoss.count := by
  funext i
  have h : shapeCast S_ y shapeCasts_S1x1_S_ i = y (ix2 0 0) := by
    refine shapeCast_apply y shapeCasts_S1x1_S_ i (ix2 0 0) ?_
    rewrite [Shape.rowMajor_val_two]
    show 0 * 1 + 0 = (Shape.rowMajorPi _ i).val
    rw [Shape.rowMajorPi_zero]
  show Ideal.ofBits .f32 0x3F800000#32
      - Ideal.div (shapeCast S_ y shapeCasts_S1x1_S_ i) (Ideal.ofBits .f32 0x47C80000#32) = _
  rw [h]
  rfl

theorem tail_entry (V : Valuation Cert.KernelIdeal.τ Cert.KernelIdeal.sig (Elt Ideal)) :
    (StableHlo.after (hostOps2 (F := Ideal)) V (Proc.devRef .tc main_v10) : S_.Idx → EReal)
      = fun _ => Cert.RankLoss.one
          - Ideal.div ((V (Proc.devRef .tc main_v7) : S1x1.Idx → EReal) (ix2 0 0)) Cert.RankLoss.count := by
  have e : (StableHlo.after (hostOps2 (F := Ideal)) V (Proc.devRef .tc main_v10) : S_.Idx → EReal)
      = subf (constant (F := Ideal) S_ .f32 0x3F800000#32)
          (Host.divf (F := Ideal) (shapeCast S_ (V (Proc.devRef .tc main_v7) : S1x1.Idx → EReal) shapeCasts_S1x1_S_)
            (constant (F := Ideal) S_ .f32 0x47C80000#32)) := by
    after_results; rfl
  rw [e]
  exact tail_value _

end Cert.RankLoss.Glue

end
-- ==== Proof.KerScore.lean ====
/-
  The score kernel's stored value read at an entry: the Gram matrix of the rows.
-/
import proofs.«126084_j66812511256800_1_alg».proof.Proof.Gen.KernelIdeal.Skeleton
import proofs.«126084_j66812511256800_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.RankLoss.Ker

open Cert.KernelIdeal Cert.KernelIdeal.Gen Idealize.ShloMosaic Idealize.ShloMosaic.ValueIdx

/-- The left operand's index of the product at output entry i and contraction coordinate q: its row is i's row. -/
theorem lhs_row (i : S320x320.Idx) (q : dot_S320x512_S512x320_S320x320_1_0_0_1_n_n.contr.Idx) :
    (dot_S320x512_S512x320_S320x320_1_0_0_1_n_n.lhsIdx i q 0).val = (i 0).val := by
  unfold DotDims.lhsIdx
  rw [dif_neg (show ¬(0 : Fin S320x512.rank) ∈ dot_S320x512_S512x320_S320x320_1_0_0_1_n_n.lhsBatch by decide),
    dif_pos (show (0 : Fin S320x512.rank) ∈ dot_S320x512_S512x320_S320x320_1_0_0_1_n_n.lhsNonContracting by decide)]
  rfl

/-- … and its column is the contraction coordinate. -/
theorem lhs_col (i : S320x320.Idx) (q : dot_S320x512_S512x320_S320x320_1_0_0_1_n_n.contr.Idx) :
    (dot_S320x512_S512x320_S320x320_1_0_0_1_n_n.lhsIdx i q 1).val = (q ⟨0, by decide⟩).val :=
  dot_S320x512_S512x320_S320x320_1_0_0_1_n_n.lhsIdx_val_of_single rfl i q

/-- The right operand's index: its row is the contraction coordinate … -/
theorem rhs_row (i : S320x320.Idx) (q : dot_S320x512_S512x320_S320x320_1_0_0_1_n_n.contr.Idx) :
    (dot_S320x512_S512x320_S320x320_1_0_0_1_n_n.rhsIdx i q 0).val = (q ⟨0, by decide⟩).val :=
  dot_S320x512_S512x320_S320x320_1_0_0_1_n_n.rhsIdx_val_of_single rfl i q

/-- … and its column is i's column. -/
theorem rhs_col (i : S320x320.Idx) (q : dot_S320x512_S512x320_S320x320_1_0_0_1_n_n.contr.Idx) :
    (dot_S320x512_S512x320_S320x320_1_0_0_1_n_n.rhsIdx i q 1).val = (i 1).val := by
  unfold DotDims.rhsIdx
  rw [dif_neg (show ¬(1 : Fin S512x320.rank) ∈ dot_S320x512_S512x320_S320x320_1_0_0_1_n_n.rhsBatch by decide),
    dif_pos (show (1 : Fin S512x320.rank) ∈ dot_S320x512_S512x320_S320x320_1_0_0_1_n_n.rhsNonContracting by decide)]
  rfl

/-- Entry (r, s) of the product of the rows with their transpose is the sum over k of row r at k times row s at k;
    the change of format on the way in is the identity on the extended reals, and the accumulator is the zero splat. -/
theorem score_entry (v0 : Vec Ideal S320x512 .f32) (r s : Fin 320) :
    k0_pay1 (F := Ideal) v0 (ix2 r s) = ∑ k : Fin 512, v0 (ix2 r k) * v0 (ix2 s k) := by
  unfold k0_pay1
  simp only [shapeCast_self]
  refine (Ideal.matmul_constant_zero_apply dot_S320x512_S512x320_S320x320_1_0_0_1_n_n none _ _ (ix2 r s)).trans ?_
  rw [← Equiv.sum_comp (contrEquiv1 dot_S320x512_S512x320_S320x320_1_0_0_1_n_n 512 rfl rfl).symm]
  refine Finset.sum_congr rfl fun k _ => ?_
  have hk := contrEquiv1_symm_val dot_S320x512_S512x320_S320x320_1_0_0_1_n_n 512 rfl rfl k
  have el : dot_S320x512_S512x320_S320x320_1_0_0_1_n_n.lhsIdx (ix2 r s)
      ((contrEquiv1 dot_S320x512_S512x320_S320x320_1_0_0_1_n_n 512 rfl rfl).symm k) = ix2 r k :=
    funext fun a => Fin.ext (by
      match a with
      | ⟨0, _⟩ => exact lhs_row _ _
      | ⟨1, _⟩ => exact (lhs_col _ _).trans hk)
  have er : dot_S320x512_S512x320_S320x320_1_0_0_1_n_n.rhsIdx (ix2 r s)
      ((contrEquiv1 dot_S320x512_S512x320_S320x320_1_0_0_1_n_n 512 rfl rfl).symm k) = ix2 k s :=
    funext fun a => Fin.ext (by
      match a with
      | ⟨0, _⟩ => exact (rhs_row _ _).trans hk
      | ⟨1, _⟩ => exact rhs_col _ _)
  rw [el, er, transpose_ix2_apply]
  rfl

end Cert.RankLoss.Ker

end
-- ==== Proof.BlockAlgebra.lean ====
/-
  Pure algebra over the extended reals: the Gram matrix is symmetric, and the sum over forty blocks of
  eight consecutive rows of the per-block ratio sums is the sum of all 320² ratios.  Only the laws of an
  additive commutative monoid are used for the regrouping (and commutativity of the product for the
  symmetry); no ring law.
-/
import proofs.«126084_j66812511256800_1_alg».proof.Proof.Spec
import Mathlib.Algebra.BigOperators.Fin
import Mathlib.Algebra.BigOperators.Group.Finset.Basic
import Mathlib.Logic.Equiv.Fin.Basic

noncomputable section

namespace Cert.RankLoss.Glue

open Cert.RankLoss

/-- The Gram matrix is symmetric: the product under the sum commutes. -/
theorem score_symm (x : (⟨3, ![64, 5, 512]⟩ : Idealize.ShloMosaic.Shape).Idx → EReal) (r s : Fin 320) :
    score x r s = score x s r := by
  unfold score
  exact Finset.sum_congr rfl (fun k _ => mul_comm _ _)

/-- Forty blocks of eight consecutive indices exhaust the 320 indices: Σ_{t<40} Σ_{bb<8} g (8t + bb) = Σ_{b<320} g b. -/
theorem sum_fin_blocks (g : Fin 320 → EReal) :
    ∑ t : Fin 40, ∑ bb : Fin 8, g ⟨8 * t.val + bb.val, by omega⟩ = ∑ b : Fin 320, g b := by
  rw [← Fintype.sum_prod_type']
  refine Fintype.sum_equiv (finProdFinEquiv (m := 40) (n := 8)) _ _ ?_
  rintro ⟨t, bb⟩
  congr 1
  apply Fin.ext
  simp [finProdFinEquiv]
  omega

/-- The forty per-block sums add up to the sum of all ratios.  In a block the second row family is, by
    definition, the column of C that the rank uses; the third is the row of S, which is its column because
    S is symmetric. -/
theorem sum_blocks (C S : Fin 320 → Fin 320 → EReal) (hS : ∀ a b, S a b = S b a) :
    ∑ t : Fin 40, blockSum (fun bb c => C ⟨8 * t.val + bb.val, by omega⟩ c)
        (fun bb a => C a ⟨8 * t.val + bb.val, by omega⟩)
        (fun bb a => S ⟨8 * t.val + bb.val, by omega⟩ a)
      = ∑ b : Fin 320, ∑ c : Fin 320, ratioOf (rank C b c) (rank S b c) := by
  rw [← sum_fin_blocks (fun b => ∑ c : Fin 320, ratioOf (rank C b c) (rank S b c))]
  refine Finset.sum_congr rfl (fun t _ => ?_)
  unfold blockSum rank
  refine Finset.sum_congr rfl (fun bb _ => ?_)
  refine Finset.sum_congr rfl (fun c _ => ?_)
  congr 2
  funext a
  exact hS _ a

/-- A running sum that starts at 0 + f 0 and adds f (n+1) at step n+1 is the sum of f over 0 … n. -/
theorem fold_sum (f acc : ℕ → EReal) (h0 : acc 0 = 0 + f 0) (hs : ∀ n, acc (n + 1) = acc n + f (n + 1))
    (n : ℕ) : acc n = ∑ i ∈ Finset.range (n + 1), f i := by
  induction n with
  | zero => simp [h0]
  | succ n ih => rw [hs, ih, Finset.sum_range_succ _ (n + 1)]

/-- After forty steps the running sum is the sum over the forty block indices. -/
theorem fold_sum_forty (f acc : ℕ → EReal) (h0 : acc 0 = 0 + f 0)
    (hs : ∀ n, acc (n + 1) = acc n + f (n + 1)) : acc 39 = ∑ t : Fin 40, f t.val := by
  rw [fold_sum f acc h0 hs 39, Fin.sum_univ_eq_sum_range]

/-- The forty per-block sums of the repeated map and the Gram matrix add up to the total of Spec. -/
theorem total_of_blocks (x : (⟨3, ![64, 5, 512]⟩ : Idealize.ShloMosaic.Shape).Idx → EReal)
    (cm : (⟨2, ![64, 64]⟩ : Idealize.ShloMosaic.Shape).Idx → EReal) :
    ∑ t : Fin 40, blockSum (fun bb c => cbig cm ⟨8 * t.val + bb.val, by omega⟩ c)
        (fun bb a => cbig cm a ⟨8 * t.val + bb.val, by omega⟩)
        (fun bb a => score x ⟨8 * t.val + bb.val, by omega⟩ a)
      = total x cm := by
  rw [sum_blocks (cbig cm) (score x) (score_symm x)]
  rfl

end Cert.RankLoss.Glue

end
-- ==== Proof.KIEntries.lean ====
/-
  The arrays the second region finds, entry by entry, in the terms of Spec.lean: window 0's array is the 64 × 64 map
  repeated over 5 × 5 tiles, window 1's its transpose, window 2's the Gram matrix of the 320 rows; hence the three
  blocks of eight rows the body sees at grid point t are rows 8·t … 8·t + 7 of those three matrices.
-/
import proofs.«126084_j66812511256800_1_alg».proof.Proof.KIMain
import proofs.«126084_j66812511256800_1_alg».proof.Proof.KIBlocks
import proofs.«126084_j66812511256800_1_alg».proof.Proof.HostGlue
import proofs.«126084_j66812511256800_1_alg».proof.Proof.KerScore
import proofs.«126084_j66812511256800_1_alg».proof.Proof.BlockAlgebra

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Entries

variable (m : (ℓ : Loc nD τ sig) → Buf (Elt Ideal) ℓ) (c : Dev nD)

/-- Neither the reshape nor the first region writes the map: the second stretch finds it as launched. -/
theorem W2_arg2 : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- Window 0's array is the repeated map. -/
theorem v5_entry (r s : Fin 320) :
    (V3 m c main_v5 : S320x320.Idx → EReal) (ix2 r s) = Cert.RankLoss.cbig (m ((c : Thread nD τ).loc main_arg2)) r s := by
  refine (Cert.RankLoss.Glue.cbig_entry (W2 m c) r s).trans ?_
  rw [W2_arg2]

/-- Window 1's array is the repeated map transposed. -/
theorem v6_entry (r s : Fin 320) :
    (V3 m c main_v6 : S320x320.Idx → EReal) (ix2 r s) = Cert.RankLoss.cbig (m ((c : Thread nD τ).loc main_arg2)) s r := by
  refine (Cert.RankLoss.Glue.cbigT_entry (W2 m c) r s).trans ?_
  rw [W2_arg2]

/-- The reshaped embeddings the first region finds are the 320 rows. -/
theorem v0_entry (r : Fin 320) (k : Fin 512) :
    (V1 m c main_v0 : S320x512.Idx → EReal) (ix2 r k) = Cert.RankLoss.row (m ((c : Thread nD τ).loc main_arg0)) r k :=
  Cert.RankLoss.Glue.rows_entry (W0 m c) r k

/-- Window 2's array is what the first region left: the Gram matrix of the rows. -/
theorem v1_entry (harr : (dat0 (V1 m) c).arrAt 1 cfg0.N = k0_pay1 (V1 m c main_v0)) (r s : Fin 320) :
    (V3 m c main_v1 : S320x320.Idx → EReal) (ix2 r s) = Cert.RankLoss.score (m ((c : Thread nD τ).loc main_arg0)) r s := by
  have e3 : V3 m c main_v1 = W2 m c (Proc.devRef .tc main_v1) := Cert.RankLoss.Glue.hostOps1_keeps_v1 (W2 m c)
  have e2 : W2 m c (Proc.devRef .tc main_v1) = k0_pay1 (V1 m c main_v0) := (W2_arr m c 1).trans harr
  rw [e3, e2]
  show @Eq EReal (k0_pay1 (F := Ideal) (V1 m c main_v0) (ix2 r s)) (Cert.RankLoss.score (m ((c : Thread nD τ).loc main_arg0)) r s)
  rw [Cert.RankLoss.Ker.score_entry]
  unfold Cert.RankLoss.score
  refine Finset.sum_congr rfl fun k _ => ?_
  rw [v0_entry, v0_entry]

/-- At grid point t the three blocks the body sees are rows 8·t … 8·t + 7 of the repeated map, of its transpose and of
    the Gram matrix: the block's ratio sum over them is the ratio sum over those rows. -/
theorem blocks_eq (harr : (dat0 (V1 m) c).arrAt 1 cfg0.N = k0_pay1 (V1 m c main_v0)) (t : Fin cfg1.N) :
    Cert.RankLoss.blockSum
        (fun bb cc => (iblk1 (V3 m) c 0 t : S8x320.Idx → EReal) (ix2 bb cc))
        (fun bb a => (iblk1 (V3 m) c 1 t : S8x320.Idx → EReal) (ix2 bb a))
        (fun bb a => (iblk1 (V3 m) c 2 t : S8x320.Idx → EReal) (ix2 bb a))
      = Cert.RankLoss.blockSum
        (fun bb cc => Cert.RankLoss.cbig (m ((c : Thread nD τ).loc main_arg2))
          (⟨8 * t.val + bb.val, by have := t.isLt; have : cfg1.N = 40 := N_1; omega⟩ : Fin 320) cc)
        (fun bb a => Cert.RankLoss.cbig (m ((c : Thread nD τ).loc main_arg2)) a
          (⟨8 * t.val + bb.val, by have := t.isLt; have : cfg1.N = 40 := N_1; omega⟩ : Fin 320))
        (fun bb a => Cert.RankLoss.score (m ((c : Thread nD τ).loc main_arg0))
          (⟨8 * t.val + bb.val, by have := t.isLt; have : cfg1.N = 40 := N_1; omega⟩ : Fin 320) a) := by
  have h0 : (fun (bb : Fin 8) (cc : Fin 320) => (iblk1 (V3 m) c 0 t : S8x320.Idx → EReal) (ix2 bb cc))
      = fun bb cc => Cert.RankLoss.cbig (m ((c : Thread nD τ).loc main_arg2))
          (⟨8 * t.val + bb.val, by have := t.isLt; have : cfg1.N = 40 := N_1; omega⟩ : Fin 320) cc := by
    funext bb cc
    exact (iblk1_0_apply (V3 m) c t bb cc).trans (v5_entry m c _ cc)
  have h1 : (fun (bb : Fin 8) (a : Fin 320) => (iblk1 (V3 m) c 1 t : S8x320.Idx → EReal) (ix2 bb a))
      = fun bb a => Cert.RankLoss.cbig (m ((c : Thread nD τ).loc main_arg2)) a
          (⟨8 * t.val + bb.val, by have := t.isLt; have : cfg1.N = 40 := N_1; omega⟩ : Fin 320) := by
    funext bb a
    exact (iblk1_1_apply (V3 m) c t bb a).trans (v6_entry m c _ a)
  have h2 : (fun (bb : Fin 8) (a : Fin 320) => (iblk1 (V3 m) c 2 t : S8x320.Idx → EReal) (ix2 bb a))
      = fun bb a => Cert.RankLoss.score (m ((c : Thread nD τ).loc main_arg0))
          (⟨8 * t.val + bb.val, by have := t.isLt; have : cfg1.N = 40 := N_1; omega⟩ : Fin 320) a := by
    funext bb a
    exact (iblk1_2_apply (V3 m) c t bb a).trans (v1_entry m c harr _ a)
  rw [h0, h1, h2]

/-- The same at a point given as a number below forty. -/
theorem blocks_eq40 (harr : (dat0 (V1 m) c).arrAt 1 cfg0.N = k0_pay1 (V1 m c main_v0)) (t : Fin 40) :
    Cert.RankLoss.blockSum
        (fun bb cc => (iblk1 (V3 m) c 0 (⟨t.val, by rw [show cfg1.N = 40 from N_1]; exact t.isLt⟩ : Fin cfg1.N) : S8x320.Idx → EReal) (ix2 bb cc))
        (fun bb a => (iblk1 (V3 m) c 1 (⟨t.val, by rw [show cfg1.N = 40 from N_1]; exact t.isLt⟩ : Fin cfg1.N) : S8x320.Idx → EReal) (ix2 bb a))
        (fun bb a => (iblk1 (V3 m) c 2 (⟨t.val, by rw [show cfg1.N = 40 from N_1]; exact t.isLt⟩ : Fin cfg1.N) : S8x320.Idx → EReal) (ix2 bb a))
      = Cert.RankLoss.blockSum
        (fun bb cc => Cert.RankLoss.cbig (m ((c : Thread nD τ).loc main_arg2)) (⟨8 * t.val + bb.val, by omega⟩ : Fin 320) cc)
        (fun bb a => Cert.RankLoss.cbig (m ((c : Thread nD τ).loc main_arg2)) a (⟨8 * t.val + bb.val, by omega⟩ : Fin 320))
        (fun bb a => Cert.RankLoss.score (m ((c : Thread nD τ).loc main_arg0)) (⟨8 * t.val + bb.val, by omega⟩ : Fin 320) a) :=
  blocks_eq m c harr (⟨t.val, by rw [show cfg1.N = 40 from N_1]; exact t.isLt⟩ : Fin cfg1.N)

/-- The forty blocks' ratio sums add up to the total of Spec.lean. -/
theorem blocks_total40 (harr : (dat0 (V1 m) c).arrAt 1 cfg0.N = k0_pay1 (V1 m c main_v0)) :
    ∑ t : Fin 40, Cert.RankLoss.blockSum
        (fun bb cc => (iblk1 (V3 m) c 0 (⟨t.val, by rw [show cfg1.N = 40 from N_1]; exact t.isLt⟩ : Fin cfg1.N) : S8x320.Idx → EReal) (ix2 bb cc))
        (fun bb a => (iblk1 (V3 m) c 1 (⟨t.val, by rw [show cfg1.N = 40 from N_1]; exact t.isLt⟩ : Fin cfg1.N) : S8x320.Idx → EReal) (ix2 bb a))
        (fun bb a => (iblk1 (V3 m) c 2 (⟨t.val, by rw [show cfg1.N = 40 from N_1]; exact t.isLt⟩ : Fin cfg1.N) : S8x320.Idx → EReal) (ix2 bb a))
      = Cert.RankLoss.total (m ((c : Thread nD τ).loc main_arg0)) (m ((c : Thread nD τ).loc main_arg2)) := by
  rw [Finset.sum_congr rfl fun t _ => blocks_eq40 m c harr t]
  exact Cert.RankLoss.Glue.total_of_blocks _ _

end Entries

end Cert.KernelIdeal.Frame

end
-- ==== Proof.KerLayout.lean ====
/-
  The reduce kernel's layout operations, its off-diagonal mask and its three sums, each read at an index
  written by coordinates.
-/
import proofs.«126084_j66812511256800_1_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.RankLoss.Ker

open Cert.KernelIdeal Cert.KernelIdeal.Gen Idealize.ShloMosaic Idealize.ShloMosaic.ValueIdx

variable {α : Type}

/-! ## Unit axes added by a shape cast -/

/-- An 8 × 320 block viewed 8 × 320 × 1 reads, at (b, a, ·), the block at (b, a). -/
theorem cast_col (x : S8x320.Idx → α) (h : S8x320.ShapeCasts S8x320x1) (b : Fin 8) (a : Fin 320) (u : Fin 1) :
    shapeCast S8x320x1 x h (ix3 b a u) = x (ix2 b a) :=
  shapeCast_apply x h _ _ (by
    have hu : u.val = 0 := by omega
    rw [Shape.rowMajor_val_three, Shape.rowMajor_val_two]
    show b.val * 320 + a.val = (b.val * 320 + a.val) * 1 + u.val
    omega)

/-- An 8 × 320 block viewed 8 × 1 × 320 reads, at (b, ·, c), the block at (b, c). -/
theorem cast_row (x : S8x320.Idx → α) (h : S8x320.ShapeCasts S8x1x320) (b : Fin 8) (u : Fin 1) (c : Fin 320) :
    shapeCast S8x1x320 x h (ix3 b u c) = x (ix2 b c) :=
  shapeCast_apply x h _ _ (by
    have hu : u.val = 0 := by omega
    rw [Shape.rowMajor_val_three, Shape.rowMajor_val_two]
    show b.val * 320 + c.val = (b.val * 1 + u.val) * 320 + c.val
    omega)

/-- Eight entries viewed 8 × 1 read, at (b, ·), entry b. -/
theorem cast_8_8x1 (x : S8.Idx → α) (h : S8.ShapeCasts S8x1) (b : Fin 8) (u : Fin 1) :
    shapeCast S8x1 x h (ix2 b u) = x (ix1 b) :=
  shapeCast_apply x h _ _ (by
    have hu : u.val = 0 := by omega
    rw [Shape.rowMajor_val_two, Shape.rowMajor_val_one]
    show b.val = b.val * 1 + u.val
    omega)

/-- One entry viewed 1 × 1 reads that entry. -/
theorem cast_1_1x1 (x : S1.Idx → α) (h : S1.ShapeCasts S1x1) (u v : Fin 1) :
    shapeCast S1x1 x h (ix2 u v) = x (ix1 (0 : Fin 1)) :=
  shapeCast_apply x h _ _ (by
    have hu : u.val = 0 := by omega
    have hv : v.val = 0 := by omega
    rw [Shape.rowMajor_val_two, Shape.rowMajor_val_one]
    show (0 : Fin 1).val = u.val * 1 + v.val
    rw [hu, hv]; rfl)

/-! ## Unit axes spread by a broadcast -/

/-- An 8 × 320 × 1 array spread over the last axis reads, at (b, a, c), the array at (b, a, 0). -/
theorem bcast_col (v : S8x320x1.Idx → α) (h : S8x320x1.Broadcasts S8x320x320) (b : Fin 8) (a c : Fin 320) :
    broadcastTo S8x320x320 v h (ix3 b a c) = v (ix3 b a (0 : Fin 1)) := by
  refine broadcastTo_apply v h (ix3 b a c) (ix3 b a (0 : Fin 1)) fun ax => ?_
  match ax with
  | ⟨0, _⟩ => rfl
  | ⟨1, _⟩ => rfl
  | ⟨2, _⟩ => rfl

/-- An 8 × 1 × 320 array spread over the middle axis reads, at (b, a, c), the array at (b, 0, c). -/
theorem bcast_row (v : S8x1x320.Idx → α) (h : S8x1x320.Broadcasts S8x320x320) (b : Fin 8) (a c : Fin 320) :
    broadcastTo S8x320x320 v h (ix3 b a c) = v (ix3 b (0 : Fin 1) c) := by
  refine broadcastTo_apply v h (ix3 b a c) (ix3 b (0 : Fin 1) c) fun ax => ?_
  match ax with
  | ⟨0, _⟩ => rfl
  | ⟨1, _⟩ => rfl
  | ⟨2, _⟩ => rfl

/-! ## The off-diagonal mask -/

/-- The mask is the one-bit word of "a ≠ c": zero on the diagonal, one off it. -/
theorem mask_apply (b : Fin 8) (a c : Fin 320) :
    k1_pay3 (ix3 b a c) = if a = c then 0#1 else 1#1 := by
  unfold k1_pay3
  show IntOp.cmpi .ne (iota .tc S8x320x320 32 [1] iota_S8x320x320_d1_w32 (ix3 b a c))
      (iota .tc S8x320x320 32 [2] iota_S8x320x320_d2_w32 (ix3 b a c)) = _
  rw [iota_single_apply, iota_single_apply]
  show IntOp.cmpi .ne (BitVec.ofNat 32 a.val) (BitVec.ofNat 32 c.val) = _
  show BitVec.ofBool (BitVec.ofNat 32 a.val != BitVec.ofNat 32 c.val) = _
  by_cases hac : a = c
  · subst hac; rw [if_pos rfl, bne_self_eq_false]; rfl
  · have hne : BitVec.ofNat 32 a.val ≠ BitVec.ofNat 32 c.val := by
      intro h
      have h' := congrArg BitVec.toNat h
      rw [BitVec.toNat_ofNat, BitVec.toNat_ofNat] at h'
      have ha := a.isLt
      have hc := c.isLt
      exact hac (Fin.ext (by omega))
    rw [if_neg hac, bne_iff_ne.mpr hne]; rfl

/-! ## The three sums -/

/-- The sum over the middle axis of an 8 × 320 × 320 array, at (b, c), is the sum over a of the array at (b, a, c). -/
theorem sum_mid (src : FVec Ideal S8x320x320 .f32) (h : S8x320x320.Reduces [1] S8x320) (hφ : FKind.Formats .f32)
    (hacc : (0x00000000#32 : BitVec 32) = 0x00000000#32) (b : Fin 8) (c : Fin 320) :
    multiReduction .add [1] S8x320 src 0x00000000#32 h hφ hacc (ix2 b c) = ∑ a : Fin 320, src (ix3 b a c) := by
  refine (Ideal.multiReduction_add_single src 0x00000000#32 h hφ hacc (ix2 b c)).trans ?_
  refine Finset.sum_congr rfl fun a _ => congrArg src (funext fun ax => Fin.ext ?_)
  match ax with
  | ⟨0, _⟩ => rfl
  | ⟨1, _⟩ => rfl
  | ⟨2, _⟩ => rfl

/-- The sum over the last axis of an 8 × 320 array, at b, is the sum over c of the array at (b, c). -/
theorem sum_lane (src : FVec Ideal S8x320 .f32) (h : S8x320.Reduces [1] S8) (hφ : FKind.Formats .f32)
    (hacc : (0x00000000#32 : BitVec 32) = 0x00000000#32) (b : Fin 8) :
    multiReduction .add [1] S8 src 0x00000000#32 h hφ hacc (ix1 b) = ∑ c : Fin 320, src (ix2 b c) := by
  refine (Ideal.multiReduction_add_single src 0x00000000#32 h hφ hacc (ix1 b)).trans ?_
  refine Finset.sum_congr rfl fun c _ => congrArg src (funext fun ax => Fin.ext ?_)
  match ax with
  | ⟨0, _⟩ => rfl
  | ⟨1, _⟩ => rfl

/-- The sum over the first axis of an 8 × 1 array, at its one entry, is the sum over b of the array at (b, 0). -/
theorem sum_sub (src : FVec Ideal S8x1 .f32) (h : S8x1.Reduces [0] S1) (hφ : FKind.Formats .f32)
    (hacc : (0x00000000#32 : BitVec 32) = 0x00000000#32) (u : Fin 1) :
    multiReduction .add [0] S1 src 0x00000000#32 h hφ hacc (ix1 u) = ∑ b : Fin 8, src (ix2 b u) := by
  refine (Ideal.multiReduction_add_single src 0x00000000#32 h hφ hacc (ix1 u)).trans ?_
  refine Finset.sum_congr rfl fun b _ => congrArg src (funext fun ax => Fin.ext ?_)
  match ax with
  | ⟨0, _⟩ => rfl
  | ⟨1, _⟩ => rfl

end Cert.RankLoss.Ker

end
-- ==== Proof.KerRank.lean ====
/-
  The reduce kernel's two rank arrays read at an entry: one plus the temperature sigmoids of the differences
  over the off-diagonal positions.
-/
import proofs.«126084_j66812511256800_1_alg».proof.Proof.KerLayout
import proofs.«126084_j66812511256800_1_alg».proof.Proof.Spec

noncomputable section

namespace Cert.RankLoss.Ker

open Cert.KernelIdeal Cert.KernelIdeal.Gen Idealize.ShloMosaic Idealize.ShloMosaic.ValueIdx

/-- The exponential of an array read at an index. -/
theorem exp_apply {s : Shape} {φ : FTy} (a : FVec Ideal s φ) (i : s.Idx) : exp a i = Ideal.exp (a i) := rfl

/-- The kernel's sigmoid chain on one difference z, with −z written 0 − z, is the temperature sigmoid of z. -/
theorem tsig_chain (z : EReal) :
    Ideal.div (Ideal.ofBits .f32 0x3F800000#32)
      (Ideal.ofBits .f32 0x3F800000#32 + Ideal.exp (min (Ideal.ofBits .f32 0x42480000#32)
        (max (Ideal.ofBits .f32 0xC2480000#32)
          (Ideal.div (Ideal.ofBits .f32 0x00000000#32 - z) (Ideal.ofBits .f32 0x3C23D70A#32))))) = tsig z := by
  rw [Ideal.ofBits_zero_f32, zero_sub]
  rfl

/-- The difference array of the Gram rows: entry (b, a, c) is the block at (b, a) minus the block at (b, c). -/
theorem diff_entry (x2 : Vec Ideal S8x320 .f32) (b : Fin 8) (a c : Fin 320) :
    k1_pay5 (F := Ideal) x2 (ix3 b a c) = x2 (ix2 b a) - x2 (ix2 b c) := by
  unfold k1_pay5
  simp only [shapeCast_self]
  rw [subf_apply, bcast_col, bcast_row, cast_col, cast_row]

/-- The rank array of the repeated map: entry (b, c) is the smooth rank of x0 (b, c) among the values x1 (b, ·),
    position c left out. -/
theorem rank_entry (x0 x1 : Vec Ideal S8x320 .f32) (b : Fin 8) (c : Fin 320) :
    k1_pay4 (F := Ideal) x0 x1 (ix2 b c) = rankRow (fun a => x1 (ix2 b a)) (x0 (ix2 b c)) c := by
  unfold k1_pay4
  simp only [shapeCast_self]
  rw [addf_apply]
  refine congrArg₂ (· + ·) ?_ rfl
  refine (sum_mid _ _ _ _ b c).trans ?_
  refine Finset.sum_congr rfl fun a _ => ?_
  rw [select_apply, mask_apply]
  by_cases hac : a = c
  · rw [if_pos hac, if_pos hac, select_zero]; rfl
  · rw [if_neg hac, if_neg hac, select_one]
    rw [divf_apply, addf_apply, exp_apply, minimumf_apply, maximumf_apply, divf_apply, subf_apply, subf_apply,
      bcast_col, bcast_row, cast_col, cast_row]
    exact tsig_chain _

end Cert.RankLoss.Ker

end
-- ==== Proof.KerStepGen.lean ====
/-
  One step of the reduce kernel: the accumulator plus the ratios of eight rows summed.
-/
import proofs.«126084_j66812511256800_1_alg».proof.Proof.KerRank

noncomputable section

namespace Cert.RankLoss.Ker

open Cert.KernelIdeal Cert.KernelIdeal.Gen Idealize.ShloMosaic Idealize.ShloMosaic.ValueIdx

/-- The kernel's sigmoid chain applied to an array of differences reads, at an index, the temperature sigmoid of the
    difference there. -/
theorem sig_apply {s : Shape} (d : FVec Ideal s .f32) (i : s.Idx) :
    divf (broadcast s (Scalar.ofBits (F := Ideal) .f32 0x3F800000#32))
      (addf (broadcast s (Scalar.ofBits (F := Ideal) .f32 0x3F800000#32))
        (exp (minimumf (broadcast s (Scalar.ofBits (F := Ideal) .f32 0x42480000#32))
          (maximumf (broadcast s (Scalar.ofBits (F := Ideal) .f32 0xC2480000#32))
            (divf (subf (broadcast s (Scalar.ofBits (F := Ideal) .f32 0x00000000#32)) d)
              (broadcast s (Scalar.ofBits (F := Ideal) .f32 0x3C23D70A#32))))))) i = tsig (d i) :=
  tsig_chain (d i)

/-- A select on the one-bit word of "not p" takes the second value where p holds and the first where it does not. -/
theorem select_ite {α : Type} (p : Prop) [Decidable p] (x y : α) :
    Scalar.select (if p then 0#1 else 1#1) x y = if p then y else x := by
  by_cases hp : p
  · rw [if_pos hp, if_pos hp]; exact select_zero x y
  · rw [if_neg hp, if_neg hp]; exact select_one x y

/-- One step on any rank array p and any difference array d: the accumulator plus, over the eight rows b and the
    positions c, the ratio of p (b, c) and the smooth rank built from d (b, ·, c). -/
theorem step_gen (p : FVec Ideal S8x320 .f32) (d : FVec Ideal S8x320x320 .f32) (acc : Vec Ideal S1x1 .f32)
    (u v : Fin 1) :
    k1_pay1 (F := Ideal) k1_pay3 p d (Scalar.ofBits .f32 0x00000000#32) acc (ix2 u v)
      = acc (ix2 u v) + ∑ b : Fin 8, ∑ c : Fin 320,
          ratioOf (p (ix2 b c)) ((∑ a : Fin 320, if a = c then zero else tsig (d (ix3 b a c))) + one) := by
  unfold k1_pay1
  simp only [shapeCast_self]
  rw [addf_apply]
  refine congrArg (acc (ix2 u v) + ·) ?_
  rw [cast_1_1x1]
  refine (sum_sub _ _ _ _ 0).trans ?_
  refine Finset.sum_congr rfl fun b _ => ?_
  rw [cast_8_8x1]
  refine (sum_lane _ _ _ _ b).trans ?_
  refine Finset.sum_congr rfl fun c _ => ?_
  rw [divf_apply, minimumf_apply, maximumf_apply, addf_apply, sum_mid]
  simp only [select_apply, mask_apply, sig_apply, select_ite, broadcast_apply]
  rfl

end Cert.RankLoss.Ker

end
-- ==== Proof.KerBlock.lean ====
/-
  The reduce kernel's two stored values: the zero it starts from, and one step — the accumulator plus the
  ratios of eight rows summed.
-/
import proofs.«126084_j66812511256800_1_alg».proof.Proof.KerStepGen

noncomputable section

namespace Cert.RankLoss.Ker

open Cert.KernelIdeal Cert.KernelIdeal.Gen Idealize.ShloMosaic Idealize.ShloMosaic.ValueIdx

/-- The accumulator starts from the zero splat. -/
theorem init_eq (j : S1x1.Idx) : k1_pay2 (F := Ideal) j = 0 := by
  unfold k1_pay2
  simp only [shapeCast_self]
  rw [broadcast_apply]
  exact Ideal.ofBits_zero_f32

/-- One step on three 8 × 320 row blocks — x0 of the repeated map's rows, x1 of its transpose's rows, x2 of the
    Gram matrix's rows — adds to the accumulator the ratios of those eight rows summed. -/
theorem step_eq (x0 x1 x2 : Vec Ideal S8x320 .f32) (acc : Vec Ideal S1x1 .f32) (j : S1x1.Idx) :
    k1_pay1 (F := Ideal) k1_pay3 (k1_pay4 x0 x1) (k1_pay5 x2) (Scalar.ofBits .f32 0x00000000#32) acc j
      = acc j + Cert.RankLoss.blockSum (fun bb c => x0 (ix2 bb c)) (fun bb a => x1 (ix2 bb a))
          (fun bb a => x2 (ix2 bb a)) := by
  obtain ⟨u, v, rfl⟩ : ∃ u v : Fin 1, j = ix2 u v := ⟨j 0, j 1, eq_ix2 j⟩
  rw [step_gen]
  refine congrArg (acc (ix2 u v) + ·) ?_
  unfold blockSum
  refine Finset.sum_congr rfl fun b _ => Finset.sum_congr rfl fun c _ => ?_
  rw [rank_entry]
  refine congrArg (ratioOf _) ?_
  unfold rankRow
  refine congrArg (· + one) (Finset.sum_congr rfl fun a _ => ?_)
  rw [diff_entry]

end Cert.RankLoss.Ker

end
-- ==== Proof.KIValue.lean ====
/-
  The idealized kernel's result over the extended reals. At grid point t the body adds to its one-word
  accumulator the sum, over the point's eight rows b and all 320 columns c, of the ratio of the two smooth ranks
  (the partial sum of the point); so after point n the accumulator holds the partial sums of points 0 … n added
  up, and the last point copies that into the output. The blocks are rows 8·t … 8·t + 7 of the repeated map, of
  its transpose and of the Gram matrix, so the forty partial sums add up to the sum of all 320² ratios; the host's
  last operations turn that into the loss.
-/
import proofs.«126084_j66812511256800_1_alg».proof.Proof.KIMain
import proofs.«126084_j66812511256800_1_alg».proof.Proof.KIBlocks
import proofs.«126084_j66812511256800_1_alg».proof.Proof.KIPieces
import proofs.«126084_j66812511256800_1_alg».proof.Proof.KIEntries
import proofs.«126084_j66812511256800_1_alg».proof.Proof.KerBlock
import proofs.«126084_j66812511256800_1_alg».proof.Proof.BlockAlgebra
import proofs.«126084_j66812511256800_1_alg».proof.Proof.HostGlue

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.RankLoss

section Value

variable (m : (ℓ : Loc nD τ sig) → Buf (Elt Ideal) ℓ) (ρ : Dev nD → PrngReg) (c : Dev nD)

/-- The partial sum the body adds at point t. -/
def part (t : Fin cfg1.N) : EReal :=
  blockSum (fun bb cc => (iblk1 (V3 m) c 0 t : S8x320.Idx → EReal) (ix2 bb cc))
    (fun bb a => (iblk1 (V3 m) c 1 t : S8x320.Idx → EReal) (ix2 bb a))
    (fun bb a => (iblk1 (V3 m) c 2 t : S8x320.Idx → EReal) (ix2 bb a))

/-- The partial sums by position, zero past the grid. -/
def partAt (i : ℕ) : EReal := if hi : i < cfg1.N then part m c ⟨i, hi⟩ else 0

theorem partAt_of_lt (i : ℕ) (hi : i < cfg1.N) : partAt m c i = part m c ⟨i, hi⟩ := dif_pos hi

/-- After point n the accumulator holds the partial sums of points 0 … n added up. -/
theorem acc_eq : ∀ (n : ℕ) (h : n < cfg1.N) (j : S1x1.Idx),
    ((outsAt1 (V3 m) c n h).2 : S1x1.Idx → EReal) j = ∑ i ∈ Finset.range (n + 1), partAt m c i
  | 0, h, j => by
    rw [outsAt1_A (V3 m) c ⟨0, h⟩ rfl (c0_zero h) (c1_zero h)]
    show (sout1_A c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) scM1 (Memref.isWhole_whole _) (c0_zero h) (c1_zero h) (iblk1 (V3 m) c 0 ⟨0, h⟩) (iblk1 (V3 m) c 1 ⟨0, h⟩) (iblk1 (V3 m) c 2 ⟨0, h⟩) : S1x1.Idx → EReal) j = _
    rw [sout1_A_eq, Ker.step_eq, Ker.init_eq, zero_add, Finset.sum_range_one, partAt_of_lt m c 0 h]
    rfl
  | n + 1, h, j => by
    have ih := acc_eq n (Nat.lt_of_succ_lt h) j
    rw [Finset.sum_range_succ, partAt_of_lt m c (n + 1) h, ← ih]
    by_cases h1 : n + 1 = 39
    · rw [outsAt1_C (V3 m) c ⟨n + 1, h⟩ (Nat.succ_ne_zero n) h1 (c0_succ n h) ((hcond1_1 ⟨n + 1, h⟩).mpr h1)]
      show (sout1_C c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) scM1 (Memref.isWhole_whole _) (c0_succ n h) ((hcond1_1 ⟨n + 1, h⟩).mpr h1) (iblk1 (V3 m) c 0 ⟨n + 1, h⟩) (iblk1 (V3 m) c 1 ⟨n + 1, h⟩) (iblk1 (V3 m) c 2 ⟨n + 1, h⟩) _ : S1x1.Idx → EReal) j = _
      rw [sout1_C_eq, Ker.step_eq]
      rfl
    · rw [outsAt1_B (V3 m) c ⟨n + 1, h⟩ (Nat.succ_ne_zero n) h1 (c0_succ n h) (fun hh => h1 ((hcond1_1 ⟨n + 1, h⟩).mp hh))]
      show (sout1_B c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) scM1 (Memref.isWhole_whole _) (c0_succ n h) (fun hh => h1 ((hcond1_1 ⟨n + 1, h⟩).mp hh)) (iblk1 (V3 m) c 0 ⟨n + 1, h⟩) (iblk1 (V3 m) c 1 ⟨n + 1, h⟩) (iblk1 (V3 m) c 2 ⟨n + 1, h⟩) _ : S1x1.Idx → EReal) j = _
      rw [sout1_B_eq, Ker.step_eq]
      rfl

theorem h39 : 39 < cfg1.N := by rw [show cfg1.N = 40 from N_1]; decide

/-- The last point copies the accumulator, all forty partial sums added up, into the output's buffer. -/
theorem out_eq (j : S1x1.Idx) :
    ((outsAt1 (V3 m) c 39 h39).1 : S1x1.Idx → EReal) j = ∑ i ∈ Finset.range 40, partAt m c i := by
  rw [outsAt1_C (V3 m) c ⟨39, h39⟩ (by decide) rfl (c0_succ 38 h39) ((hcond1_1 ⟨39, h39⟩).mpr rfl)]
  show (out1_C c (grid1.coords ⟨39, h39⟩) (ms1_0 ⟨39, h39⟩) (hs1_0 ⟨39, h39⟩) (ms1_1 ⟨39, h39⟩) (hs1_1 ⟨39, h39⟩) (ms1_2 ⟨39, h39⟩) (hs1_2 ⟨39, h39⟩) (ms1_3 ⟨39, h39⟩) (hs1_3 ⟨39, h39⟩) scM1 (Memref.isWhole_whole _) (c0_succ 38 h39) ((hcond1_1 ⟨39, h39⟩).mpr rfl) (iblk1 (V3 m) c 0 ⟨39, h39⟩) (iblk1 (V3 m) c 1 ⟨39, h39⟩) (iblk1 (V3 m) c 2 ⟨39, h39⟩) _ : S1x1.Idx → EReal) j = _
  rw [out1_C_eq, Ker.step_eq, Finset.sum_range_succ, partAt_of_lt m c 39 h39, ← acc_eq m c 38 (Nat.lt_of_succ_lt h39) j]
  rfl

/-- The forty partial sums add up to the sum of all 320² ratios. -/
theorem sum_parts :
    ∑ i ∈ Finset.range 40, partAt m c i
      = total (m ((c : Thread nD τ).loc main_arg0)) (m ((c : Thread nD τ).loc main_arg2)) := by
  rw [← Fin.sum_univ_eq_sum_range (fun i => partAt m c i) 40, ← Glue.total_of_blocks]
  refine Finset.sum_congr rfl fun t _ => ?_
  have ht : t.val < cfg1.N := by rw [show cfg1.N = 40 from N_1]; exact t.isLt
  rw [partAt_of_lt m c t.val ht]
  exact blocks_eq m c (arr0_final (V1 m) c) ⟨t.val, ht⟩

/-- The program's result buffer ends at the loss of the two argument arrays. -/
theorem v10_eq :
    (W5 m c (Proc.devRef .tc main_v10) : S_.Idx → EReal)
      = loss (m ((c : Thread nD τ).loc main_arg0)) (m ((c : Thread nD τ).loc main_arg2)) := by
  show (StableHlo.after (hostOps2 (F := Ideal)) (W4 m c) (Proc.devRef .tc main_v10) : S_.Idx → EReal) = _
  rw [Glue.tail_entry (W4 m c)]
  have h7 : (W4 m c (Proc.devRef .tc main_v7) : S1x1.Idx → EReal) (ix2 0 0)
      = total (m ((c : Thread nD τ).loc main_arg0)) (m ((c : Thread nD τ).loc main_arg2)) := by
    rw [show (W4 m c (Proc.devRef .tc main_v7) : S1x1.Idx → EReal) = (dat1 (V3 m) c).arrAt 3 cfg1.N from W4_arr m c 3,
      arr1_final (V3 m) c, out_eq m c, sum_parts m c]
  rw [h7]
  rfl

end Value

/-- THE VALUE RUN: every weakly fair execution of the idealized kernel's @main terminates with the result at the loss
    of the launch contents of the two argument arrays it reads, and all three arguments unchanged. -/
theorem ker_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10) = loss (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v10 (by decide))).trans (v10_eq m c),
     (h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

end Cert.KernelIdeal.Frame

end
-- ==== Proof.RefScore.lean ====
/-
  The reference's product of the rows with their transpose, entry by entry: the Gram matrix of Spec.lean.
-/
import proofs.«126084_j66812511256800_1_alg».proof.Proof.Gen.ReferenceIdeal.Read
import proofs.«126084_j66812511256800_1_alg».proof.Proof.Spec

noncomputable section

namespace Cert.RankLoss.Ref

open Cert.ReferenceIdeal Cert.ReferenceIdeal.Read Idealize.ShloMosaic Idealize.ShloMosaic.ValueIdx

/-- The reshaped embeddings at (r, k) are row r at position k: entry 512·r + k of the flat array is x[r / 5, r % 5, k]. -/
theorem rows_entry (x0 : (⟨S64x5x512, .f32⟩ : BufTy).Contents (Elt Ideal)) (r : Fin 320) (k : Fin 512) :
    val_main_v0 (F := Ideal) x0 (ix2 r k) = row x0 r k := by
  rw [val_main_v0_apply]
  unfold row
  refine congrArg x0 (funext fun a => Fin.ext ?_)
  have hr : r.val < 320 := r.isLt
  have hk : k.val < 512 := k.isLt
  match a with
  | ⟨0, _⟩ => show (r.val * 512 + k.val) / 2560 = r.val / 5; omega
  | ⟨1, _⟩ => show (r.val * 512 + k.val) / 512 % 5 = r.val % 5; omega
  | ⟨2, _⟩ => show (r.val * 512 + k.val) % 512 = k.val; omega

/-- The transposed rows at (k, s) are row s at position k. -/
theorem rowsT_entry (x0 : (⟨S64x5x512, .f32⟩ : BufTy).Contents (Elt Ideal)) (k : Fin 512) (s : Fin 320) :
    val_main_v1 (F := Ideal) x0 (ix2 k s) = row x0 s k := by
  rw [val_main_v1_apply]
  exact rows_entry x0 s k

/-- The product of the rows with their transpose is the Gram matrix. -/
theorem score_entry (x0 : (⟨S64x5x512, .f32⟩ : BufTy).Contents (Elt Ideal)) (r s : Fin 320) :
    val_main_v2 (F := Ideal) x0 (ix2 r s) = score x0 r s := by
  rw [val_main_v2_apply]
  unfold score
  refine Finset.sum_congr rfl fun k _ => ?_
  exact congrArg₂ (· * ·) (rows_entry x0 r k) (rowsT_entry x0 k s)

end Cert.RankLoss.Ref

end
-- ==== Proof.RefCbig.lean ====
/-
  The reference's two repeats of the 64 × 64 map, entry by entry: the tiled map of Spec.lean.
-/
import proofs.«126084_j66812511256800_1_alg».proof.Proof.Gen.ReferenceIdeal.Read
import proofs.«126084_j66812511256800_1_alg».proof.Proof.Spec

noncomputable section

namespace Cert.RankLoss.Ref

open Cert.ReferenceIdeal Cert.ReferenceIdeal.Read Idealize.ShloMosaic Idealize.ShloMosaic.ValueIdx

/-- The map repeated five times along each axis reads, at (r, s), the entry (r / 5, s / 5) of the 64 × 64 map. -/
theorem cbig_entry (x2 : (⟨S64x64, .f32⟩ : BufTy).Contents (Elt Ideal)) (r s : Fin 320) :
    val_main_v6 (F := Ideal) x2 (ix2 r s) = cbig x2 r s := by
  rw [val_main_v6_apply, val_main_v5_apply, val_main_v4_apply, val_main_v3_apply]
  unfold cbig
  refine congrArg x2 (funext fun a => Fin.ext ?_)
  have hr : r.val < 320 := r.isLt
  have hs : s.val < 320 := s.isLt
  match a with
  | ⟨0, _⟩ =>
    show ((r.val * 320 + s.val) / 1600 * 320 + (r.val * 320 + s.val) % 320) / 320 = r.val / 5
    omega
  | ⟨1, _⟩ =>
    show ((r.val * 320 + s.val) / 1600 * 320 + (r.val * 320 + s.val) % 320) / 5 % 64 = s.val / 5
    omega

end Cert.RankLoss.Ref

end
-- ==== Proof.RefMask.lean ====
/-
  The reference's mask, entry by entry: 1 − [a = c] from two iotas, a comparison and a conversion.
-/
import proofs.«126084_j66812511256800_1_alg».proof.Proof.Gen.ReferenceIdeal.Read
import Idealize.ShloMosaic.Lib.IdealHost

noncomputable section

namespace Cert.RankLoss.Ref

open Cert.ReferenceIdeal Cert.ReferenceIdeal.Read Idealize.ShloMosaic Idealize.ShloMosaic.ValueIdx

/-- Comparing the row number with the column number, as 32-bit words, gives the 1-bit word of "a = c": both are below 2³². -/
theorem eq_word (a c : Fin 320) :
    IntOp.cmpi .eq (IntOp.addi (BitVec.ofNat 32 a.val) 0#32) (BitVec.ofNat 32 c.val) = if a = c then 1#1 else 0#1 := by
  by_cases h : a = c
  · subst h; simp [IntOp.cmpi, IntOp.addi]
  · have hne : BitVec.ofNat 32 a.val ≠ BitVec.ofNat 32 c.val := by
      intro e
      have e' := congrArg BitVec.toNat e
      simp only [BitVec.toNat_ofNat] at e'
      have ha : a.val < 320 := a.isLt
      have hc : c.val < 320 := c.isLt
      exact h (Fin.ext (by omega))
    have hb : (BitVec.ofNat 32 a.val == BitVec.ofNat 32 c.val) = false := beq_eq_false_iff_ne.mpr hne
    simp [IntOp.cmpi, IntOp.addi, hb, h]

/-- The mask 1 − [a = c]: zero on the diagonal, one off it. -/
theorem mask_entry (a c : Fin 320) :
    val_main_v14 (F := Ideal) (ix2 a c) = if a = c then (0 : EReal) else 1 := by
  rw [val_main_v14_apply, val_main_v13_apply, val_main_cst_apply, val_main_v12_apply, val_main_v11_apply,
    val_main_v10_apply, val_main_v7_apply, val_main_v9_apply, val_main_c_apply, val_main_v8_apply]
  show Ideal.ofBits .f32 0x3F800000#32
      - (((IntOp.cmpi .eq (IntOp.addi (BitVec.ofNat 32 a.val) 0#32) (BitVec.ofNat 32 c.val)).toNat : ℝ) : EReal) = _
  rw [eq_word, Ideal.ofBits_one_f32]
  by_cases h : a = c
  · rw [if_pos h, if_pos h]
    show (1 : EReal) - (((1 : ℕ) : ℝ) : EReal) = 0
    rw [Nat.cast_one, EReal.coe_one]
    exact EReal.sub_self (by decide) (by decide)
  · rw [if_neg h, if_neg h]
    show (1 : EReal) - (((0 : ℕ) : ℝ) : EReal) = 1
    rw [Nat.cast_zero, EReal.coe_zero, sub_zero]

/-- The mask repeated along the middle axis. -/
theorem mask3_entry (a b c : Fin 320) :
    val_main_v35 (F := Ideal) (ix3 a b c) = if a = c then (0 : EReal) else 1 := by
  rw [val_main_v35_apply, val_main_v15_apply]
  exact mask_entry a c

/-- The second copy of the repeated mask. -/
theorem mask3'_entry (a b c : Fin 320) :
    val_main_v49 (F := Ideal) (ix3 a b c) = if a = c then (0 : EReal) else 1 := by
  rw [val_main_v49_apply, val_main_v15_apply]
  exact mask_entry a c

end Cert.RankLoss.Ref

end
-- ==== Proof.RefRank.lean ====
/-
  The reference's difference cubes and temperature sigmoids, entry by entry, for the repeated map and for the Gram
  matrix, and the law that turns a masked sum of sigmoids into the smooth rank of Spec.lean.
-/
import proofs.«126084_j66812511256800_1_alg».proof.Proof.RefScore
import proofs.«126084_j66812511256800_1_alg».proof.Proof.RefCbig
import proofs.«126084_j66812511256800_1_alg».proof.Proof.RefMask

noncomputable section

namespace Cert.RankLoss.Ref

open Cert.ReferenceIdeal Cert.ReferenceIdeal.Read Idealize.ShloMosaic Idealize.ShloMosaic.ValueIdx

/-- The masked sum of sigmoids with the zero word in front and the one word behind is the smooth rank:
    0 + s = s, 0 · t = 0 and 1 · t = t hold for every extended real. -/
theorem rank_of_masked (d : Fin 320 → Fin 320 → EReal) (b c : Fin 320) :
    (Ideal.ofBits .f32 0x00000000#32 + ∑ a : Fin 320, (if a = c then (0 : EReal) else 1) * tsig (d a b - d b c))
      + Ideal.ofBits .f32 0x3F800000#32 = rank d b c := by
  unfold rank rankRow one
  rw [Ideal.ofBits_zero_f32, zero_add]
  refine congrArg (· + Ideal.ofBits .f32 0x3F800000#32) (Finset.sum_congr rfl fun a _ => ?_)
  by_cases h : a = c
  · rw [if_pos h, if_pos h, zero_mul]; exact Ideal.ofBits_zero_f32.symm
  · rw [if_neg h, if_neg h, one_mul]

/-- The difference cube of the repeated map: entry (a, b) minus entry (b, c). -/
theorem cdiff_entry (x2 : (⟨S64x64, .f32⟩ : BufTy).Contents (Elt Ideal)) (a b c : Fin 320) :
    val_main_v25 (F := Ideal) x2 (ix3 a b c) = cbig x2 a b - cbig x2 b c := by
  rw [val_main_v25_apply, val_main_v23_apply, val_main_v21_apply, val_main_v24_apply, val_main_v22_apply]
  exact congrArg₂ (· - ·) (cbig_entry x2 a b) (cbig_entry x2 b c)

/-- The difference cube of the Gram matrix. -/
theorem sdiff_entry (x0 : (⟨S64x5x512, .f32⟩ : BufTy).Contents (Elt Ideal)) (a b c : Fin 320) :
    val_main_v20 (F := Ideal) x0 (ix3 a b c) = score x0 a b - score x0 b c := by
  rw [val_main_v20_apply, val_main_v18_apply, val_main_v16_apply, val_main_v19_apply, val_main_v17_apply]
  exact congrArg₂ (· - ·) (score_entry x0 a b) (score_entry x0 b c)

/-- The temperature sigmoid of the map's differences: negate, divide by T, clamp, exponential, 1 / (1 + ·). -/
theorem ctsig_entry (x2 : (⟨S64x64, .f32⟩ : BufTy).Contents (Elt Ideal)) (a b c : Fin 320) :
    val_main_v34 (F := Ideal) x2 (ix3 a b c) = tsig (cbig x2 a b - cbig x2 b c) := by
  rw [val_main_v34_apply, val_main_v33_apply, val_main_cst_4_apply, val_main_v32_apply, val_main_v31_apply,
    val_main_cst_3_apply, val_main_v30_apply, val_main_v29_apply, val_main_call0_v4_apply, val_main_call0_v3_apply,
    val_main_cst_2_apply, val_main_call0_v2_apply, val_main_call0_v1_apply, val_main_call0_v0_apply,
    val_main_cst_1_apply, val_main_v28_apply, val_main_v26_apply, val_main_v27_apply, val_main_cst_0_apply,
    cdiff_entry]
  rfl

/-- The temperature sigmoid of the Gram matrix's differences. -/
theorem stsig_entry (x0 : (⟨S64x5x512, .f32⟩ : BufTy).Contents (Elt Ideal)) (a b c : Fin 320) :
    val_main_v48 (F := Ideal) x0 (ix3 a b c) = tsig (score x0 a b - score x0 b c) := by
  rw [val_main_v48_apply, val_main_v47_apply, val_main_cst_11_apply, val_main_v46_apply, val_main_v45_apply,
    val_main_cst_10_apply, val_main_v44_apply, val_main_v43_apply, val_main_call1_v4_apply, val_main_call1_v3_apply,
    val_main_cst_9_apply, val_main_call1_v2_apply, val_main_call1_v1_apply, val_main_call1_v0_apply,
    val_main_cst_8_apply, val_main_v42_apply, val_main_v40_apply, val_main_v41_apply, val_main_cst_7_apply,
    sdiff_entry]
  rfl

end Cert.RankLoss.Ref

end
-- ==== Proof.RefRanks.lean ====
/-
  The reference's two smooth ranks, entry by entry: the masked sum of sigmoids over the first axis and the added one
  are the rank of Spec.lean, for the repeated map and for the Gram matrix.
-/
import proofs.«126084_j66812511256800_1_alg».proof.Proof.RefRank

noncomputable section

namespace Cert.RankLoss.Ref

open Cert.ReferenceIdeal Cert.ReferenceIdeal.Read Idealize.ShloMosaic Idealize.ShloMosaic.ValueIdx

/-- The summation index of the first reduce: position a of the first axis at the entry (b, c). -/
theorem idx37_eq (b c a : Fin 320) : idx_main_v37 (ix2 b c) a = ix3 a b c :=
  funext fun d => match d with | ⟨0, _⟩ => rfl | ⟨1, _⟩ => rfl | ⟨2, _⟩ => rfl

/-- The summation index of the second reduce. -/
theorem idx51_eq (b c a : Fin 320) : idx_main_v51 (ix2 b c) a = ix3 a b c :=
  funext fun d => match d with | ⟨0, _⟩ => rfl | ⟨1, _⟩ => rfl | ⟨2, _⟩ => rfl

/-- The smooth rank of the repeated map at (b, c). -/
theorem crank_entry (x2 : (⟨S64x64, .f32⟩ : BufTy).Contents (Elt Ideal)) (b c : Fin 320) :
    val_main_v39 (F := Ideal) x2 (ix2 b c) = rank (cbig x2) b c := by
  rw [val_main_v39_apply, val_main_v38_apply, val_main_cst_6_apply, val_main_v37_apply, val_main_cst_5_apply]
  refine Eq.trans ?_ (rank_of_masked (cbig x2) b c)
  refine congrArg (· + Ideal.ofBits .f32 0x3F800000#32)
    (congrArg (Ideal.ofBits .f32 0x00000000#32 + ·) (Finset.sum_congr rfl fun a _ => ?_))
  rw [val_main_v36_apply, idx37_eq, mask3_entry, ctsig_entry]
  exact Ideal.mulf_def _ _

/-- The smooth rank of the Gram matrix at (b, c). -/
theorem srank_entry (x0 : (⟨S64x5x512, .f32⟩ : BufTy).Contents (Elt Ideal)) (b c : Fin 320) :
    val_main_v53 (F := Ideal) x0 (ix2 b c) = rank (score x0) b c := by
  rw [val_main_v53_apply, val_main_v52_apply, val_main_cst_13_apply, val_main_v51_apply, val_main_cst_12_apply]
  refine Eq.trans ?_ (rank_of_masked (score x0) b c)
  refine congrArg (· + Ideal.ofBits .f32 0x3F800000#32)
    (congrArg (Ideal.ofBits .f32 0x00000000#32 + ·) (Finset.sum_congr rfl fun a _ => ?_))
  rw [val_main_v50_apply, idx51_eq, mask3'_entry, stsig_entry]
  exact Ideal.mulf_def _ _

end Cert.RankLoss.Ref

end
-- ==== Proof.RefValue.lean ====
/-
  The reference's run read back index by index: its result is the loss of Spec.lean.
-/
import proofs.«126084_j66812511256800_1_alg».proof.Proof.RefRanks

noncomputable section

namespace Cert.RankLoss.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The smaller rank over the larger, at (b, c). -/
theorem ratio_entry (x0 : (⟨S64x5x512, .f32⟩ : BufTy).Contents (Elt Ideal))
    (x2 : (⟨S64x64, .f32⟩ : BufTy).Contents (Elt Ideal)) (b c : Fin 320) :
    val_main_v56 (F := Ideal) x0 x2 (ix2 b c) = ratio x0 x2 b c := by
  rw [val_main_v56_apply, val_main_v54_apply, val_main_v55_apply, crank_entry, srank_entry]
  rfl

/-- The sum over both axes, started from the zero word, is the double sum of the ratios. -/
theorem total_entry (x0 : (⟨S64x5x512, .f32⟩ : BufTy).Contents (Elt Ideal))
    (x2 : (⟨S64x64, .f32⟩ : BufTy).Contents (Elt Ideal)) (i : S_.Idx) :
    val_main_v57 (F := Ideal) x0 x2 i = total x0 x2 := by
  rw [val_main_v57_apply, val_main_cst_14_apply, Ideal.ofBits_def, Ideal.ofBits_zero_f32, zero_add]
  refine (sum_idx2 (n0 := 320) (n1 := 320) _).trans ?_
  unfold total
  exact Finset.sum_congr rfl fun b _ => Finset.sum_congr rfl fun c _ => ratio_entry x0 x2 b c

/-- The reference's result is the loss: one minus the total over 320². -/
theorem ref_is_loss (x0 : (⟨Cert.ReferenceIdeal.S64x5x512, .f32⟩ : BufTy).Contents (Elt Ideal))
    (x2 : (⟨Cert.ReferenceIdeal.S64x64, .f32⟩ : BufTy).Contents (Elt Ideal)) :
    Cert.ReferenceIdeal.Read.val_main_v59 (F := Ideal) x0 x2 = Cert.RankLoss.loss x0 x2 := by
  funext i
  rw [val_main_v59_apply, val_main_cst_16_apply, val_main_v58_apply, val_main_cst_15_apply, total_entry]
  rfl

/-- The reference's run ends with the loss of its first and third arguments in the result buffer, the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v59)
          = Cert.RankLoss.loss (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m' ((c.tc : Thread Cert.ReferenceIdeal.nD Cert.ReferenceIdeal.τ).loc Cert.ReferenceIdeal.main_arg2)) :=
  (θ_run _ _ _).mono
    (fun _ h c => ⟨by rw [(h c).1, Read.val_main_v59_eq, ref_is_loss], (h c).2⟩)
    (Cert.ReferenceIdeal.Value.run (F := Ideal) m' ρ')

end Cert.RankLoss.Ref

end
-- ==== Proof.lean ====
/-
  The smooth-rank loss kernel against its reference, over the extended reals.

  Both programs return 1 − (Σ_{b,c} ratio b c) / 320², where for the 320 rows of the embeddings (score = their Gram
  matrix) and the 64 × 64 map repeated over 5 × 5 tiles (cbig), ratio b c is the smaller over the larger of the two
  smooth ranks  rank d b c = 1 + Σ_{a ≠ c} tsig (d a b − d b c),  d = cbig and d = score (Proof/Spec.lean).

  The reference forms the two 320 × 320 × 320 difference tensors, masks the diagonal a = c by a 0/1 factor, and sums
  over a (Proof/Ref*.lean: its generated run, read index by index).
  The kernel computes the Gram matrix in a first region; a second region of forty grid points takes eight rows b at a
  time — the rows of cbig, of its transpose and of score —, selects a ≠ c instead of multiplying by a mask, sums over a,
  and adds the eight rows' ratios into a one-word accumulator that it carries from point to point and copies out at the
  last point; the host then divides and subtracts. Three facts join the two: the Gram matrix is symmetric, so the row
  score b · stands for the column score · b (commutativity of the product); the masked sum is the selected sum
  (0 · x = 0 and 1 · x = x for every extended real x, and the sigmoid's clamped exponent keeps nothing else in play);
  and forty partial sums of eight rows are the sum over the 320 rows (associativity and commutativity of +). None of
  them needs the inputs finite.

  The frames: Proof/K*.lean (the kernel as printed) and Proof/KI*.lean (its idealization) run @main as five segments —
  host operations, the first region, host operations, the second region, host operations — and name what every
  unscoped buffer holds at the end; the arguments are written by nothing.
-/
import proofs.«126084_j66812511256800_1_alg».proof.Defs
import proofs.«126084_j66812511256800_1_alg».proof.Proof.Gen.Kernel
import proofs.«126084_j66812511256800_1_alg».proof.Proof.Gen.KernelIdeal
import proofs.«126084_j66812511256800_1_alg».proof.Proof.Gen.ReferenceIdeal
import proofs.«126084_j66812511256800_1_alg».proof.Proof.Gen.Pre_finite_inputs
import proofs.«126084_j66812511256800_1_alg».proof.Proof.KMain
import proofs.«126084_j66812511256800_1_alg».proof.Proof.KIValue
import proofs.«126084_j66812511256800_1_alg».proof.Proof.RefValue
import Idealize.ShloMosaic.Adequacy
import Idealize.ShloMosaic.Init

noncomputable section

namespace Cert.Proof

open Idealize.ShloMosaic Idealize.SL.Sem

/-- The kernel as printed runs to the end and leaves its arguments alone. -/
theorem frame_k : Cert.frame_Kernel := fun m ρ _ => Cert.Kernel.Frame.frame (F := Bits) m ρ

/-- So does its idealization. -/
theorem frame_ki : Cert.frame_KernelIdeal := fun m ρ _ => Cert.KernelIdeal.Frame.frame (F := Ideal) m ρ

/-- So does the reference: its run, the result dropped. -/
theorem frame_ri : Cert.frame_ReferenceIdeal := fun m ρ _ =>
  (θ_run Cert.ReferenceIdeal.defs _ _).mono (fun _ h c => (h c).2) (Cert.RankLoss.Ref.ref_run m ρ)

/-- The ideal pass rewrote nothing. -/
theorem preserves : Cert.preserves_Kernel_KernelIdeal := trivial

/-- From memories that agree on the arguments both programs end at the loss of those arguments. -/
theorem algebraic : Cert.algebraic_KernelIdeal_ReferenceIdeal := by
  intro m ρ m' ρ' _ hagree
  refine ⟨fun c => Cert.RankLoss.loss (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    Cert.KernelIdeal.Frame.ker_run m ρ, ?_⟩
  refine (θ_run Cert.ReferenceIdeal.defs _ _).mono (fun _ h c => ⟨(h c).1.trans ?_, (h c).2⟩) (Cert.RankLoss.Ref.ref_run m' ρ')
  rw [(hagree c).1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
